-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) (main_arg1 : IVec S16x1024x1024 32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.floor main_arg0
  let main_v5 : IVec S16x1024x1024 1 := cmpf .oeq main_arg0 main_v4
  let main_c_0 : IVec S_ 1 := constantI S_ 1 1#1
  let main_v6 : IVec S_ 1 := (fun x v => Host.reduce IntOp.andi x v reducesTo_S16x1024x1024_S_d0_1_2 h_S_) main_v5 main_c_0
  let main_v7 : IVec S_ 1 := andi main_v3 main_v6
  main_v7
-- ==== Kernel.lean ====
abbrev S16x1024x1024 : Shape := ⟨3, ![16, 1024, 1024]⟩
abbrev S2x8x128 : Shape := ⟨3, ![2, 8, 128]⟩
abbrev S1x512x1024 : Shape := ⟨3, ![1, 512, 1024]⟩
abbrev S1x8x128 : Shape := ⟨3, ![1, 8, 128]⟩
abbrev S8x128 : Shape := ⟨2, ![8, 128]⟩
abbrev S512x1024 : Shape := ⟨2, ![512, 1024]⟩
abbrev S1x4 : Shape := ⟨2, ![1, 4]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x4 : Shape := ⟨3, ![1, 1, 4]⟩
abbrev S_ : Shape := ⟨0, ![]⟩
abbrev S4 : Shape := ⟨1, ![4]⟩

abbrev nBuf : Space → Nat
  | .hbm => 34
  | .vmem => 6
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .i32⟩
  | .hbm, ⟨2, _⟩ => ⟨S2x8x128, .f32⟩
  | .hbm, ⟨3, _⟩ => ⟨S_, .f32⟩
  | .hbm, ⟨4, _⟩ => ⟨S8x128, .f32⟩
  | .hbm, ⟨5, _⟩ => ⟨S1x4, .f32⟩
  | .hbm, ⟨6, _⟩ => ⟨S4, .f32⟩
  | .hbm, ⟨7, _⟩ => ⟨S1x4, .f32⟩
  | .hbm, ⟨8, _⟩ => ⟨S4, .f32⟩
  | .hbm, ⟨9, _⟩ => ⟨S1x4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .i1⟩
  | .hbm, ⟨16, _⟩ => ⟨S_, .f32⟩
  | .hbm, ⟨17, _⟩ => ⟨S4, .f32⟩
  | .hbm, ⟨18, _⟩ => ⟨S4, .i1⟩
  | .hbm, ⟨19, _⟩ => ⟨S_, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .i32⟩
  | .local _ .vmem, ⟨3, _⟩ => ⟨S1x512x1024, .i32⟩
  | .local _ .vmem, ⟨4, _⟩ => ⟨S1x8x128, .f32⟩
  | .local _ .vmem, ⟨5, _⟩ => ⟨S1x8x128, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S1x4_d1_w32 : S1x4.Iotas .tc 32 [1]
  natLt_1_32 : 1 < 32
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  broadcasts_S1x1_S1x4 : S1x1.Broadcasts S1x4
  inb_S1x8x128_S1x1x4_0_0_0 : ∀ a, (![0, 0, 0] : Fin 3 → Nat) a + S1x1x4.size a ≤ S1x8x128.size a
  h_S1x1x4 : 0 < S1x1x4.numel
  shapeCasts_S1x1x4_S1x4 : S1x1x4.ShapeCasts S1x4
  shapeCasts_S1x4_S1x1x4 : S1x4.ShapeCasts S1x1x4
  inb_S1x8x128_S1x1x4_0_1_0 : ∀ a, (![0, 1, 0] : Fin 3 → Nat) a + S1x1x4.size a ≤ S1x8x128.size a
  inb_S1x8x128_S1x1x4_0_2_0 : ∀ a, (![0, 2, 0] : Fin 3 → Nat) a + S1x1x4.size a ≤ S1x8x128.size a
  reducesTo_S2x8x128_S8x128_d0 : S2x8x128.ReducesTo [0] S8x128
  h_S_ : 0 < S_.numel
  slices_S8x128_S1x4_0_0 : S8x128.Slices ![0, 0] S1x4
  shapeCasts_S1x4_S4 : S1x4.ShapeCasts S4
  slices_S8x128_S1x4_1_0 : S8x128.Slices ![1, 0] S1x4
  slices_S8x128_S1x4_2_0 : S8x128.Slices ![2, 0] S1x4
  bcast_S_S4 : S_.BroadcastsInDim S4 (![] : Fin 0 → Fin S4.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x1024x1024.size a
  hwx0_1 : ∀ i : grid0.Coords, EltTy.bits .i32 = 32 ∨ (Rect.block (s := S16x1024x1024) S1x512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S4 : Shape := ⟨1, ![4]⟩
abbrev S16x1024x1024x1 : Shape := ⟨4, ![16, 1024, 1024, 1]⟩
abbrev S1x1x1x4 : Shape := ⟨4, ![1, 1, 1, 4]⟩
abbrev S16x1024x1024x4 : Shape := ⟨4, ![16, 1024, 1024, 4]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .i32⟩
  | .hbm, ⟨2, _⟩ => ⟨S4, .i32⟩
  | .hbm, ⟨3, _⟩ => ⟨S16x1024x1024x1, .f32⟩
  | .hbm, ⟨4, _⟩ => ⟨S4, .f32⟩
  | .hbm, ⟨5, _⟩ => ⟨S1x1x1x4, .f32⟩
  | .hbm, ⟨6, _⟩ => ⟨S16x1024x1024x4, .f32⟩
  | .hbm, ⟨7, _⟩ => ⟨S16x1024x1024x4, .f32⟩
  | .hbm, ⟨8, _⟩ => ⟨S16x1024x1024x4, .i1⟩
  | .hbm, ⟨9, _⟩ => ⟨S16x1024x1024x1, .i32⟩
  | .hbm, ⟨10, _⟩ => ⟨S1x1x1x4, .i32⟩
  | .hbm, ⟨11, _⟩ => ⟨S16x1024x1024x4, .i32⟩
  | .hbm, ⟨12, _⟩ => ⟨S16x1024x1024x4, .i32⟩
  | .hbm, ⟨13, _⟩ => ⟨S16x1024x1024x4, .i1⟩
  | .hbm, ⟨14, _⟩ => ⟨S16x1024x1024x4, .i1⟩
  | .hbm, ⟨15, _⟩ => ⟨S16x1024x1024x4, .i32⟩
  | .hbm, ⟨16, _⟩ => ⟨S_, .i32⟩
  | .hbm, ⟨17, _⟩ => ⟨S4, .i32⟩
  | .hbm, ⟨18, _⟩ => ⟨S4, .f32⟩
  | .hbm, ⟨19, _⟩ => ⟨S16x1024x1024x4, .i1⟩
  | .hbm, ⟨20, _⟩ => ⟨S16x1024x1024x4, .i32⟩
  | .hbm, ⟨21, _⟩ => ⟨S_, .i32⟩
  | .hbm, ⟨22, _⟩ => ⟨S4, .i32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .i1⟩
  | .hbm, ⟨27, _⟩ => ⟨S_, .f32⟩
  | .hbm, ⟨28, _⟩ => ⟨S4, .f32⟩
  | .hbm, ⟨29, _⟩ => ⟨S4, .i1⟩
  | .hbm, ⟨30, _⟩ => ⟨S_, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S16x1024x1024_S16x1024x1024x1_0_1_2 : S16x1024x1024.BroadcastsInDim S16x1024x1024x1 (![0, 1, 2] : Fin 3 → Fin S16x1024x1024x1.rank)
  bcast_S4_S1x1x1x4_3 : S4.BroadcastsInDim S1x1x1x4 (![3] : Fin 1 → Fin S1x1x1x4.rank)
  bcast_S16x1024x1024x1_S16x1024x1024x4_0_1_2_3 : S16x1024x1024x1.BroadcastsInDim S16x1024x1024x4 (![0, 1, 2, 3] : Fin 4 → Fin S16x1024x1024x4.rank)
  bcast_S1x1x1x4_S16x1024x1024x4_0_1_2_3 : S1x1x1x4.BroadcastsInDim S16x1024x1024x4 (![0, 1, 2, 3] : Fin 4 → Fin S16x1024x1024x4.rank)
  natLt_1_32 : 1 < 32
  reducesTo_S16x1024x1024x4_S4_d0_1_2 : S16x1024x1024x4.ReducesTo [0, 1, 2] S4
  h_S_ : 0 < S_.numel
  bcast_S_S4 : S_.BroadcastsInDim S4 (![] : Fin 0 → Fin S4.rank)

variable [Facts₀]

class Facts : Prop extends Facts₀ where

variable [Facts]
-- ==== Proof.CountSpec.lean ====
/-
  The specification both programs are read against: per class k ∈ {0,1,2,3} the NUMBER of pixels of a
  [16, 1024, 1024] array pair (predictions x, labels l) that satisfy a condition — the prediction is class k, the
  label is class k, both, either — and the one arithmetic tail that turns the intersection and union counts
  into the loss `1 − 100 · iou`, with `iou = 1` where the union is empty and `inter / union` elsewhere.

  The kernel reads a prediction as a class through truncation toward zero (`truncIs`), the reference compares the
  float itself with the class (`valueIs`); on integer-valued predictions the two readings agree. The kernel
  counts tile by tile (32 tiles of 512 rows of one image) and forms the union count as
  `pred + label − inter`; the reference counts the union directly. Counting is over finite sets, so the tiles'
  counts add up to the whole array's (`tileIdx` is the bijection) and inclusion–exclusion joins the two unions.
-/
import Idealize.ShloMosaic.PureOps.Ideal
import Idealize.ShloMosaic.Lib.ValueIdx

noncomputable section

namespace Cert.CountSpec

open Idealize.ShloMosaic Idealize.ShloMosaic.ValueIdx

/-- The prediction / label arrays' shape, one tile's shape, the per-class vector's shape, a scalar's. -/
abbrev SArr : Shape := ⟨3, ![16, 1024, 1024]⟩
abbrev STile : Shape := ⟨3, ![1, 512, 1024]⟩
abbrev SCls : Shape := ⟨1, ![4]⟩
abbrev SSc : Shape := ⟨0, ![]⟩

/-- The kernel's reading of a prediction as class `k`: its truncation toward zero, as a 32-bit word, is `k`. -/
def truncIs (v : EReal) (k : Fin 4) : Prop := Ideal.fptosi 32 v = BitVec.ofNat 32 k.val
/-- The reference's reading: the float is the number `k`. -/
def valueIs (v : EReal) (k : Fin 4) : Prop := v = ((k.val : ℝ) : EReal)
/-- A label word is class `k`. -/
def labelIs (w : BitVec 32) (k : Fin 4) : Prop := w = BitVec.ofNat 32 k.val

open Classical in
/-- How many pixels of the whole array satisfy `P`. -/
def count (P : SArr.Idx → Prop) : ℕ := (Finset.univ.filter P).card

open Classical in
/-- How many pixels of one tile satisfy `P`. -/
def tileCount (P : STile.Idx → Prop) : ℕ := (Finset.univ.filter P).card

/-- Tile `t` of the 32 is rows `512·(t mod 2) … + 511` of image `t / 2`: where its pixel `y` sits in the array. -/
def tileIdx (t : Fin 32) (y : STile.Idx) : SArr.Idx :=
  ix3 (⟨t.val / 2, by omega⟩ : Fin 16)
    (⟨512 * (t.val % 2) + (y 1).val, by have := (y 1).isLt; (show 512 * (t.val % 2) + (y 1).val < 1024); (have h2 : (y 1).val < 512 := this); omega⟩ : Fin 1024)
    (⟨(y 2).val, (y 2).isLt⟩ : Fin 1024)

/-- A per-class count as the kernel's and the reference's float vector: entry `k` is the count, a real number. -/
def countVec (P : Fin 4 → SArr.Idx → Prop) : FVec Ideal SCls .f32 :=
  fun j => (((count (P ⟨(j 0).val, (j 0).isLt⟩) : ℕ) : ℝ) : EReal)

/-- The per-class counts of the two programs. -/
def predK (x : FVec Ideal SArr .f32) : FVec Ideal SCls .f32 := countVec fun k i => truncIs (x i) k
def labelK (l : IVec SArr 32) : FVec Ideal SCls .f32 := countVec fun k i => labelIs (l i) k
def interK (x : FVec Ideal SArr .f32) (l : IVec SArr 32) : FVec Ideal SCls .f32 :=
  countVec fun k i => truncIs (x i) k ∧ labelIs (l i) k
def interR (x : FVec Ideal SArr .f32) (l : IVec SArr 32) : FVec Ideal SCls .f32 :=
  countVec fun k i => valueIs (x i) k ∧ labelIs (l i) k
def unionR (x : FVec Ideal SArr .f32) (l : IVec SArr 32) : FVec Ideal SCls .f32 :=
  countVec fun k i => valueIs (x i) k ∨ labelIs (l i) k

/-- The shared arithmetic tail: `1 − 100 · (union = 0 ? 1 : inter / (union = 0 ? 1 : union))`, entry by entry, spelt with the
    host operations both programs end in. -/
def tail (hb : SSc.BroadcastsInDim SCls (![] : Fin 0 → Fin SCls.rank)) (inter union : FVec Ideal SCls .f32) : FVec Ideal SCls .f32 :=
  subf (broadcastInDim SCls ![] hb (constant (F := Ideal) SSc .f32 0x3F800000#32))
    (mulf (broadcastInDim SCls ![] hb (constant (F := Ideal) SSc .f32 0x42C80000#32))
      (select (cmpf (F := Ideal) .oeq union (broadcastInDim SCls ![] hb (constant (F := Ideal) SSc .f32 0x00000000#32)))
        (broadcastInDim SCls ![] hb (constant (F := Ideal) SSc .f32 0x3F800000#32))
        (Host.divf (F := Ideal) inter
          (select (cmpf (F := Ideal) .oeq union (broadcastInDim SCls ![] hb (constant (F := Ideal) SSc .f32 0x00000000#32)))
            (broadcastInDim SCls ![] hb (constant (F := Ideal) SSc .f32 0x3F800000#32)) union))))

/-- What the kernel's program returns: the tail of its intersection count and of `pred + label − inter`. -/
def kernelSpec (hb : SSc.BroadcastsInDim SCls (![] : Fin 0 → Fin SCls.rank)) (x : FVec Ideal SArr .f32) (l : IVec SArr 32) :
    FVec Ideal SCls .f32 :=
  tail hb (interK x l) (subf (addf (predK x) (labelK l)) (interK x l))

/-- What the reference returns: the tail of its intersection and union counts. -/
def refSpec (hb : SSc.BroadcastsInDim SCls (![] : Fin 0 → Fin SCls.rank)) (x : FVec Ideal SArr .f32) (l : IVec SArr 32) :
    FVec Ideal SCls .f32 :=
  tail hb (interR x l) (unionR x l)

end Cert.CountSpec

end
-- ==== Proof.RefCountAux.lean ====
/-
  Auxiliary facts for the reference side. The reference counts, per class, by summing a 0/1 indicator over a
  [16, 1024, 1024, 4] array of comparisons: entry (p, k) compares pixel p with class k. Here: the program's last
  operations are the specification's tail; a comparison entry read as a statement about its pixel and class; the sum
  of the indicator over the pixels of one class is the number of pixels with the property; that number, below 2^24,
  survives the 32-bit word and its signed reading.
-/
import proofs.«145284_j10900626997841_2_alg».proof.Proof.RefReadP
import proofs.«145284_j10900626997841_2_alg».proof.Proof.CountSpec
import Idealize.ShloMosaic.Lib.IndicatorCount
import Idealize.ShloMosaic.PureOps.Reduce
import Idealize.ShloMosaic.Lib.ValueIdx

noncomputable section

namespace Cert.ReferenceIdeal.RefValue

open Cert.ReferenceIdeal Cert.ReferenceIdeal.Gen Idealize.ShloMosaic Idealize.ShloMosaic.ValueIdx

/-- The last eleven operations of the reference compose to the specification's tail, whatever the two counts are. -/
theorem tail_eq (x : FVec Ideal S16x1024x1024 .f32) (l : IVec S16x1024x1024 32) :
    Cert.ReferenceIdeal.ReadP.val_main_v30 (F := Ideal) x l
      = Cert.CountSpec.tail bcast_S_S4 (Cert.ReferenceIdeal.ReadP.val_main_v15 (F := Ideal) x l)
          (Cert.ReferenceIdeal.ReadP.val_main_v19 (F := Ideal) x l) := by
  unfold Cert.ReferenceIdeal.ReadP.val_main_v30 Cert.ReferenceIdeal.ReadP.val_main_v28
    Cert.ReferenceIdeal.ReadP.val_main_v26 Cert.ReferenceIdeal.ReadP.val_main_v25
    Cert.ReferenceIdeal.ReadP.val_main_v24 Cert.ReferenceIdeal.ReadP.val_main_v23
    Cert.ReferenceIdeal.ReadP.val_main_v21
  generalize Cert.ReferenceIdeal.ReadP.val_main_v15 (F := Ideal) x l = a
  generalize Cert.ReferenceIdeal.ReadP.val_main_v19 (F := Ideal) x l = b
  rfl

/-- A 32-bit word holding a number below 2^31 reads, signed, as that number. -/
theorem toInt_ofNat_small (n : ℕ) (h : n < 2147483648) : (BitVec.ofNat 32 n).toInt = (n : Int) := by
  rw [BitVec.toInt_eq_toNat_cond, BitVec.toNat_ofNat]
  have : n % 2 ^ 32 = n := Nat.mod_eq_of_lt (by omega)
  rw [this]
  split <;> omega

theorem numel_arr : Cert.CountSpec.SArr.numel = 16777216 := by
  simp [Shape.numel, Fin.prod_univ_succ]

theorem count_le (P : Cert.CountSpec.SArr.Idx → Prop) : Cert.CountSpec.count P ≤ 16777216 := by
  unfold Cert.CountSpec.count
  refine (Finset.card_le_univ _).trans ?_
  rw [Shape.card_idx, numel_arr]

theorem drop_eq_iff (i : S16x1024x1024x4.Idx) (j : S4.Idx) :
    reducesTo_S16x1024x1024x4_S4_d0_1_2.drop i = j ↔ (i 3).val = (j 0).val := by
  constructor
  · intro h
    rw [← h]
    exact (Shape.ReducesTo.drop_apply_val_of_eq reducesTo_S16x1024x1024x4_S4_d0_1_2 i 0 3).symm
  · intro h
    funext b
    match b with
    | ⟨0, _⟩ =>
      apply Fin.ext
      exact (Shape.ReducesTo.drop_apply_val_of_eq reducesTo_S16x1024x1024x4_S4_d0_1_2 i 0 3).trans h

open Cert.ReferenceIdeal.ReadP

/-- The pixel a 4-D comparison index sits over, and its class. -/
abbrev pix (i : S16x1024x1024x4.Idx) : S16x1024x1024.Idx :=
  ix3 (⟨(i 0).val, (i 0).isLt⟩ : Fin 16) (⟨(i 1).val, (i 1).isLt⟩ : Fin 1024) (⟨(i 2).val, (i 2).isLt⟩ : Fin 1024)
abbrev cls (i : S16x1024x1024x4.Idx) : Fin 4 := ⟨(i 3).val, (i 3).isLt⟩

theorem andi_ofBool (p q : Bool) : IntOp.andi (BitVec.ofBool p) (BitVec.ofBool q) = 1#1 ↔ (p = true ∧ q = true) := by
  cases p <;> cases q <;> decide

theorem ori_ofBool (p q : Bool) : IntOp.ori (BitVec.ofBool p) (BitVec.ofBool q) = 1#1 ↔ (p = true ∨ q = true) := by
  cases p <;> cases q <;> decide

theorem toInt_ofNat_lt4 (k : ℕ) (h : k < 4) : (BitVec.ofNat 32 k).toInt = (k : Int) := by
  rw [BitVec.toInt_eq_toNat_cond, BitVec.toNat_ofNat]
  have : k % 2 ^ 32 = k := Nat.mod_eq_of_lt (by omega)
  rw [this]
  split <;> omega

theorem v6_read (x : FVec Ideal S16x1024x1024 .f32) (i : S16x1024x1024x4.Idx) :
    val_main_v6 (F := Ideal) x i = BitVec.ofBool (decide (x (pix i) = (((cls i).val : ℝ) : EReal))) := by
  rw [val_main_v6_apply, val_main_v4_apply, val_main_v1_apply, val_main_v5_apply, val_main_v3_apply,
    val_main_v2_apply, val_main_v0_apply]
  have e1 : idx_main_v1 (idx_main_v4 i) = pix i := by
    funext a
    match a with
    | ⟨0, _⟩ => rfl
    | ⟨1, _⟩ => rfl
    | ⟨2, _⟩ => rfl
  rw [e1]
  show Ideal.cmp .oeq (x (pix i)) ((((BitVec.ofNat 32 (i 3).val).toInt : ℝ) : EReal)) = _
  rw [toInt_ofNat_lt4 _ (i 3).isLt]
  rfl

theorem v11_read (l : IVec S16x1024x1024 32) (i : S16x1024x1024x4.Idx) :
    val_main_v11 (F := Ideal) l i = BitVec.ofBool (decide (l (pix i) = BitVec.ofNat 32 (cls i).val)) := by
  rw [val_main_v11_apply, val_main_v9_apply, val_main_v7_apply, val_main_v10_apply, val_main_v8_apply,
    val_main_v0_apply]
  have e1 : idx_main_v7 (idx_main_v9 i) = pix i := by
    funext a
    match a with
    | ⟨0, _⟩ => rfl
    | ⟨1, _⟩ => rfl
    | ⟨2, _⟩ => rfl
  rw [e1]
  rfl

theorem v12_one_iff (x : FVec Ideal S16x1024x1024 .f32) (l : IVec S16x1024x1024 32) (i : S16x1024x1024x4.Idx) :
    val_main_v12 (F := Ideal) x l i = 1#1
      ↔ Cert.CountSpec.valueIs (x (pix i)) (cls i) ∧ Cert.CountSpec.labelIs (l (pix i)) (cls i) := by
  rw [val_main_v12_apply, v6_read, v11_read, andi_ofBool, decide_eq_true_eq, decide_eq_true_eq]
  rfl

theorem v16_one_iff (x : FVec Ideal S16x1024x1024 .f32) (l : IVec S16x1024x1024 32) (i : S16x1024x1024x4.Idx) :
    val_main_v16 (F := Ideal) x l i = 1#1
      ↔ Cert.CountSpec.valueIs (x (pix i)) (cls i) ∨ Cert.CountSpec.labelIs (l (pix i)) (cls i) := by
  rw [val_main_v16_apply, v6_read, v11_read, ori_ofBool, decide_eq_true_eq, decide_eq_true_eq]
  rfl

/-- The 4-D indices over class `j` whose bit is set are as many as the pixels with the property: the pixel of such an
    index determines it, its class being `j`'s. -/
theorem card_fiber (b : IVec S16x1024x1024x4 1) (P : Fin 4 → S16x1024x1024.Idx → Prop)
    (hb : ∀ i, b i = 1#1 ↔ P (cls i) (pix i)) (j : S4.Idx) :
    ((Finset.univ.filter fun i => reducesTo_S16x1024x1024x4_S4_d0_1_2.drop i = j).filter fun k => b k = 1#1).card
      = Cert.CountSpec.count (P ⟨(j 0).val, (j 0).isLt⟩) := by
  classical
  unfold Cert.CountSpec.count
  have hcls : ∀ i : S16x1024x1024x4.Idx, (i 3).val = (j 0).val → cls i = (⟨(j 0).val, (j 0).isLt⟩ : Fin 4) :=
    fun i h => Fin.ext h
  refine Finset.card_bij' (fun i _ => pix i)
    (fun i' _ => (ix4 (⟨(i' 0).val, (i' 0).isLt⟩ : Fin 16) (⟨(i' 1).val, (i' 1).isLt⟩ : Fin 1024)
      (⟨(i' 2).val, (i' 2).isLt⟩ : Fin 1024) (⟨(j 0).val, (j 0).isLt⟩ : Fin 4) : S16x1024x1024x4.Idx)) ?_ ?_ ?_ ?_
  · intro i hi
    obtain ⟨hd, hbit⟩ := Finset.mem_filter.1 hi
    have hd' := (drop_eq_iff i j).1 (Finset.mem_filter.1 hd).2
    refine Finset.mem_filter.2 ⟨Finset.mem_univ _, ?_⟩
    rw [← hcls i hd']
    exact (hb i).1 hbit
  · intro i' hi'
    have hP := (Finset.mem_filter.1 hi').2
    refine Finset.mem_filter.2 ⟨Finset.mem_filter.2 ⟨Finset.mem_univ _, (drop_eq_iff _ j).2 rfl⟩, ?_⟩
    refine (hb _).2 ?_
    have e : pix (ix4 (⟨(i' 0).val, (i' 0).isLt⟩ : Fin 16) (⟨(i' 1).val, (i' 1).isLt⟩ : Fin 1024)
        (⟨(i' 2).val, (i' 2).isLt⟩ : Fin 1024) (⟨(j 0).val, (j 0).isLt⟩ : Fin 4)) = i' := by
      funext a
      match a with
      | ⟨0, _⟩ => rfl
      | ⟨1, _⟩ => rfl
      | ⟨2, _⟩ => rfl
    rw [e]
    exact hP
  · intro i hi
    obtain ⟨hd, _⟩ := Finset.mem_filter.1 hi
    have hd' := (drop_eq_iff i j).1 (Finset.mem_filter.1 hd).2
    funext a
    match a with
    | ⟨0, _⟩ => rfl
    | ⟨1, _⟩ => rfl
    | ⟨2, _⟩ => rfl
    | ⟨3, _⟩ => exact Fin.ext hd'.symm
  · intro i' _
    funext a
    match a with
    | ⟨0, _⟩ => rfl
    | ⟨1, _⟩ => rfl
    | ⟨2, _⟩ => rfl

/-- The reference's counting idiom: the integer sum, over the three array axes, of a one-bit condition widened to 32 bits,
    converted to a float, is the number of pixels with the property the bit decides. -/
theorem reduce_read (b : IVec S16x1024x1024x4 1) (P : Fin 4 → S16x1024x1024.Idx → Prop)
    (hb : ∀ i, b i = 1#1 ↔ P (cls i) (pix i)) :
    sitofp (F := Ideal) .f32 (Host.reduce IntOp.addi (extui 32 b natLt_1_32) (constantI S_ 32 0#32)
        reducesTo_S16x1024x1024x4_S4_d0_1_2 h_S_)
      = Cert.CountSpec.countVec P := by
  funext j
  show ((((Host.reduce IntOp.addi (extui 32 b natLt_1_32) (constantI S_ 32 0#32)
        reducesTo_S16x1024x1024x4_S4_d0_1_2 h_S_ j).toInt : ℝ)) : EReal) = _
  rw [Host.reduce_eq_fold]
  have hfold := IndicatorCount.fold_addi_setWidth_eq_card (w := 32) b
    (Finset.univ.filter fun i => reducesTo_S16x1024x1024x4_S4_d0_1_2.drop i = j)
  have hfold' : (Finset.univ.filter fun i => reducesTo_S16x1024x1024x4_S4_d0_1_2.drop i = j).fold IntOp.addi
      (constantI S_ 32 0#32 (Shape.Idx.first h_S_)) (extui 32 b natLt_1_32)
      = BitVec.ofNat 32 (Cert.CountSpec.count (P ⟨(j 0).val, (j 0).isLt⟩)) := by
    rw [← card_fiber b P hb j]
    exact hfold
  rw [hfold', toInt_ofNat_small _ (lt_of_le_of_lt (count_le _) (by norm_num))]
  rfl

end Cert.ReferenceIdeal.RefValue

end
-- ==== Proof.RefCount.lean ====
/-
  The reference side. The reference program compares every pixel of the prediction and label arrays with every class,
  sums the 0/1 indicators of "both equal the class" and of "either equals the class" over the pixels as 32-bit
  integers, converts the sums to floats and applies the arithmetic tail. Read at the ideal instance, the two sums are
  the specification's whole-array intersection and union counts, so the program's result is the specification's
  `refSpec`.
-/
import proofs.«145284_j10900626997841_2_alg».proof.Proof.RefCountAux

noncomputable section

namespace Cert.ReferenceIdeal.RefValue

open Cert.ReferenceIdeal Cert.ReferenceIdeal.Gen Idealize.ShloMosaic Idealize.ShloMosaic.ValueIdx
open Cert.ReferenceIdeal.ReadP

/-- The converted sum of the "both" indicator is the intersection count. -/
theorem v15_eq (x : FVec Ideal S16x1024x1024 .f32) (l : IVec S16x1024x1024 32) :
    val_main_v15 (F := Ideal) x l = Cert.CountSpec.interR x l := by
  unfold val_main_v15 val_main_v14 val_main_v13 val_main_c
  exact reduce_read (val_main_v12 (F := Ideal) x l)
    (fun k i => Cert.CountSpec.valueIs (x i) k ∧ Cert.CountSpec.labelIs (l i) k) (fun i => v12_one_iff x l i)

/-- The converted sum of the "either" indicator is the union count. -/
theorem v19_eq (x : FVec Ideal S16x1024x1024 .f32) (l : IVec S16x1024x1024 32) :
    val_main_v19 (F := Ideal) x l = Cert.CountSpec.unionR x l := by
  unfold val_main_v19 val_main_v18 val_main_v17 val_main_c_0
  exact reduce_read (val_main_v16 (F := Ideal) x l)
    (fun k i => Cert.CountSpec.valueIs (x i) k ∨ Cert.CountSpec.labelIs (l i) k) (fun i => v16_one_iff x l i)

/-- The reference's result is the specification's: the tail of the whole-array intersection and union counts. -/
theorem result_eq (x : FVec Ideal S16x1024x1024 .f32) (l : IVec S16x1024x1024 32) :
    Cert.ReferenceIdeal.ReadP.val_main_v30 (F := Ideal) x l = Cert.CountSpec.refSpec bcast_S_S4 x l := by
  rw [tail_eq, v15_eq, v19_eq]
  rfl

end Cert.ReferenceIdeal.RefValue

end
-- ==== Proof.CountBridge.lean ====
/-
  The counting bridge: finite-set facts that join the two programs' counts.

  * `count_tiles`: the 32 tiles partition the [16, 1024, 1024] array, so the tiles' counts add up to the array's.
    The map (t, y) ↦ tileIdx t y is a bijection from (tile, pixel of the tile) onto the array's pixels: pixel
    i sits in tile 2·i₀ + i₁ / 512 at row i₁ mod 512.
  * `truncIs_iff_valueIs`: an integer n truncates to itself, its clamp to the 32-bit range is a 32-bit word that is
    the class k < 4 exactly when n = k, i.e. when the real number n is the real number k.
  * `spec_eq`: on integer-valued predictions the two intersections are the same count, and
    |A| + |B| − |A ∩ B| = |A ∪ B| makes the two unions the same.
-/
import proofs.«145284_j10900626997841_2_alg».proof.Proof.CountSpec

noncomputable section

namespace Cert.CountSpec

open Idealize.ShloMosaic Idealize.ShloMosaic.ValueIdx
open scoped BigOperators

/-! ## The tiles partition the array -/

/-- Where a pixel of the array sits: its tile and its place in the tile. -/
def tileOf (i : SArr.Idx) : Fin 32 × STile.Idx :=
  (⟨2 * (i 0).val + (i 1).val / 512, by
      have h0 : (i 0).val < 16 := (i 0).isLt
      have h1 : (i 1).val < 1024 := (i 1).isLt
      omega⟩,
   ix3 (⟨0, Nat.one_pos⟩ : Fin 1)
     (⟨(i 1).val % 512, Nat.mod_lt _ (by norm_num)⟩ : Fin 512)
     (⟨(i 2).val, (i 2).isLt⟩ : Fin 1024))

theorem tileIdx_tileOf (i : SArr.Idx) : tileIdx (tileOf i).1 (tileOf i).2 = i := by
  have h0 : (i 0).val < 16 := (i 0).isLt
  have h1 : (i 1).val < 1024 := (i 1).isLt
  funext a
  match a with
  | ⟨0, _⟩ =>
    refine Fin.ext ?_
    show (2 * (i 0).val + (i 1).val / 512) / 2 = (i 0).val
    omega
  | ⟨1, _⟩ =>
    refine Fin.ext ?_
    show 512 * ((2 * (i 0).val + (i 1).val / 512) % 2) + (i 1).val % 512 = (i 1).val
    omega
  | ⟨2, _⟩ => rfl

theorem tileIdx_injective : Function.Injective (fun p : Fin 32 × STile.Idx => tileIdx p.1 p.2) := by
  rintro ⟨t, y⟩ ⟨t', y'⟩ h
  have ht : t.val < 32 := t.isLt
  have ht' : t'.val < 32 := t'.isLt
  have hy1 : (y 1).val < 512 := (y 1).isLt
  have hy1' : (y' 1).val < 512 := (y' 1).isLt
  have hy0 : (y 0).val < 1 := (y 0).isLt
  have hy0' : (y' 0).val < 1 := (y' 0).isLt
  have e0 : t.val / 2 = t'.val / 2 := congrArg Fin.val (congrFun h 0)
  have e1 : 512 * (t.val % 2) + (y 1).val = 512 * (t'.val % 2) + (y' 1).val := congrArg Fin.val (congrFun h 1)
  have e2 : (y 2).val = (y' 2).val := congrArg Fin.val (congrFun h 2)
  have et : t = t' := Fin.ext (by omega)
  have ey : y = y' := by
    funext a
    match a with
    | ⟨0, _⟩ => exact Fin.ext (by show (y 0).val = (y' 0).val; omega)
    | ⟨1, _⟩ => exact Fin.ext (by show (y 1).val = (y' 1).val; omega)
    | ⟨2, _⟩ => exact Fin.ext e2
  rw [et, ey]

theorem tileIdx_bijective : Function.Bijective (fun p : Fin 32 × STile.Idx => tileIdx p.1 p.2) :=
  ⟨tileIdx_injective, fun i => ⟨tileOf i, tileIdx_tileOf i⟩⟩

open Classical in
/-- The 32 tiles partition the array: the tiles' counts add up to the whole array's. -/
theorem count_tiles (P : SArr.Idx → Prop) : (∑ t : Fin 32, tileCount (fun y => P (tileIdx t y))) = count P := by
  unfold tileCount count
  simp only [Finset.card_filter]
  rw [← Fintype.sum_prod_type (f := fun p : Fin 32 × STile.Idx => if P (tileIdx p.1 p.2) then 1 else 0)]
  exact Fintype.sum_bijective _ tileIdx_bijective _ _ (fun _ => rfl)

/-! ## Truncation reads an integer as itself -/

theorem truncIs_iff_valueIs (n : ℤ) (k : Fin 4) : truncIs ((n : ℝ) : EReal) k ↔ valueIs ((n : ℝ) : EReal) k := by
  have hk : k.val < 4 := k.isLt
  unfold truncIs valueIs
  rw [Ideal.fptosi, Ideal.toIntClamped_coe]
  have hn : (if (0 : ℝ) ≤ (n : ℝ) then ⌊(n : ℝ)⌋ else ⌈(n : ℝ)⌉) = n := by split_ifs <;> simp
  rw [hn, EReal.coe_eq_coe_iff]
  have e31 : ((2 ^ (32 - 1) : ℕ) : ℤ) = 2147483648 := by norm_num
  rw [e31]
  constructor
  · intro h
    have h' := congrArg BitVec.toNat h
    rw [BitVec.toNat_ofInt, BitVec.toNat_ofNat] at h'
    have hnk : n = (k.val : ℤ) := by omega
    rw [hnk]
    norm_cast
  · intro h
    have hnk : n = (k.val : ℤ) := by exact_mod_cast h
    have hm : max (-2147483648) (min (2147483648 - 1) n) = (k.val : ℤ) := by omega
    rw [hm, BitVec.ofInt_natCast]

/-! ## Inclusion–exclusion, and the two specifications agree -/

/-- Counting respects equivalence of the conditions. -/
theorem count_congr {P Q : SArr.Idx → Prop} (h : ∀ i, P i ↔ Q i) : count P = count Q := by
  have hPQ : P = Q := funext fun i => propext (h i)
  rw [hPQ]

open Classical in
/-- |A ∪ B| + |A ∩ B| = |A| + |B|. -/
theorem count_or_add_and (A B : SArr.Idx → Prop) :
    count (fun i => A i ∨ B i) + count (fun i => A i ∧ B i) = count A + count B := by
  unfold count
  refine Eq.trans ?_ (Finset.card_union_add_card_inter _ _)
  congr 1
  · congr 1
    ext i
    simp only [Finset.mem_filter, Finset.mem_union, Finset.mem_univ, true_and]
  · congr 1
    ext i
    simp only [Finset.mem_filter, Finset.mem_inter, Finset.mem_univ, true_and]

/-- The same as extended reals: |A| + |B| − |A ∩ B| = |A ∪ B|. -/
theorem count_add_sub (A B : SArr.Idx → Prop) :
    (((count A : ℕ) : ℝ) : EReal) + (((count B : ℕ) : ℝ) : EReal) - (((count (fun i => A i ∧ B i) : ℕ) : ℝ) : EReal)
      = (((count (fun i => A i ∨ B i) : ℕ) : ℝ) : EReal) := by
  have key := congrArg (Nat.cast : ℕ → ℝ) (count_or_add_and A B)
  push_cast at key
  rw [← EReal.coe_add, ← EReal.coe_sub, EReal.coe_eq_coe_iff]
  linarith

/-- On integer-valued predictions the kernel's result is the reference's: truncation reads an integer as itself, and
    |A| + |B| − |A ∩ B| = |A ∪ B|. -/
theorem spec_eq (hb : SSc.BroadcastsInDim SCls (![] : Fin 0 → Fin SCls.rank)) (x : FVec Ideal SArr .f32) (l : IVec SArr 32)
    (hint : ∀ i, ∃ n : ℤ, x i = ((n : ℝ) : EReal)) : kernelSpec hb x l = refSpec hb x l := by
  have hti : ∀ (k : Fin 4) (i : SArr.Idx), truncIs (x i) k ↔ valueIs (x i) k := by
    intro k i
    obtain ⟨n, hn⟩ := hint i
    rw [hn]
    exact truncIs_iff_valueIs n k
  have hP : ∀ k : Fin 4, count (fun i => truncIs (x i) k) = count (fun i => valueIs (x i) k) :=
    fun k => count_congr fun i => hti k i
  have hA : ∀ k : Fin 4, count (fun i => truncIs (x i) k ∧ labelIs (l i) k)
      = count (fun i => valueIs (x i) k ∧ labelIs (l i) k) :=
    fun k => count_congr fun i => and_congr_left' (hti k i)
  have hI : interK x l = interR x l := by
    funext j
    simp only [interK, interR, countVec, hA]
  have hU : subf (addf (predK x) (labelK l)) (interK x l) = unionR x l := by
    funext j
    rw [subf_apply, addf_apply]
    simp only [predK, labelK, interK, unionR, countVec, hP, hA]
    exact count_add_sub _ _
  unfold kernelSpec refSpec
  rw [hU, hI]

end Cert.CountSpec

end
-- ==== Proof.PreOpen.lean ====
/-
  The precondition, opened. It is the conjunction of two statements about every prediction x i:
  |x i| < +∞, and x i = ⌊x i⌋. The first excludes the two infinities, so x i is a real number r; the second
  then says r = ⌊r⌋, an integer.
-/
import proofs.«145284_j10900626997841_2_alg».proof.Pre_finite_inputs
import Idealize.ShloMosaic.PureOps.Ideal
import Idealize.ShloMosaic.Lib.ReduceAll
import Idealize.ShloMosaic.Lib.ValueIdx

noncomputable section

namespace Cert.PreOpen

open Idealize.ShloMosaic

/-- The scalar shape has one index. -/
instance : Subsingleton Cert.Pre_finite_inputs.S_.Idx := ⟨fun a b => funext fun d => d.elim0⟩

/-- The f32 pattern 0x7F800000 is +∞. -/
theorem ofBits_inf : Ideal.ofBits .f32 0x7F800000#32 = ⊤ := by simp [Ideal.ofBits, Ideal.ieee]

/-- An extended real whose absolute value max v (−v) is below +∞ and which equals its floor is an integer. -/
theorem int_of_elem (v : EReal) (h1 : Ideal.cmp .olt (max v (-v)) ⊤ = 1#1)
    (h2 : Ideal.cmp .oeq v (Ideal.liftRound Int.floor v) = 1#1) : ∃ n : ℤ, v = ((n : ℝ) : EReal) := by
  induction v using EReal.rec with
  | bot => simp [Ideal.cmp] at h1
  | top => simp [Ideal.cmp] at h1
  | coe r =>
    refine ⟨⌊r⌋, ?_⟩
    rw [Ideal.liftRound_coe] at h2
    have h3 : BitVec.ofBool (decide (r = ⌊r⌋)) = 1#1 := by simpa [Ideal.cmp] using h2
    have h4 : r = ⌊r⌋ := by
      by_contra hne
      rw [decide_eq_false hne] at h3
      exact absurd h3 (by decide)
    exact congrArg (fun t : ℝ => (t : EReal)) h4

/-- Under the precondition every prediction is an integer (as a real number). -/
theorem integral_of_pre [Cert.Pre_finite_inputs.Facts] (x : FVec Ideal Cert.Pre_finite_inputs.S16x1024x1024 .f32)
    (l : IVec Cert.Pre_finite_inputs.S16x1024x1024 32)
    (h : Cert.Pre_finite_inputs.fn (F := Ideal) x l = fun _ => 1#1) : ∀ i, ∃ n : ℤ, x i = ((n : ℝ) : EReal) := by
  intro i
  have h0 := congrFun h ValueIdx.ix0
  dsimp only [Cert.Pre_finite_inputs.fn] at h0
  obtain ⟨ha, hb⟩ := IntOp.andi_eq_one.1 h0
  have h1 := Host.reduce_andi_all _ _ _ _ _ ha i
  have h2 := Host.reduce_andi_all _ _ _ _ _ hb i
  refine int_of_elem (x i) ?_ ?_
  · rw [← ofBits_inf]
    exact h1
  · exact h2

end Cert.PreOpen

end
-- ==== Proof.KernelBlocks.lean ====
/-
  The pipeline's geometry read as arithmetic. Point t of the 32 stages rows 512·(t mod 2) … + 511 of image t / 2 of
  both inputs; the output block of group g = t / 16 is written back once, after the group's last point t = 16·g + 15,
  to block g of the [2, 8, 128] result array. So the result array's entry (g, r, k) is what the output's staging
  buffer holds at (0, r, k) after point 16·g + 15.
-/
import proofs.«145284_j10900626997841_2_alg».proof.Proof.Gen.KernelIdeal.Frame
import proofs.«145284_j10900626997841_2_alg».proof.Proof.CountSpec
import Idealize.ShloMosaic.Lib.Pipeline.Value
import Idealize.ShloMosaic.Lib.ValueIdx
set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]
variable (m : (ℓ : Loc nD τ sig) → Buf (Elt F) ℓ)

theorem hN : cfg0.N = 32 := N_0

/-- The index maps, decided over the grid. -/
theorem idx_in0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem idx_in1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)
theorem idx_out : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- A grid point as one of the specification's 32 tiles. -/
def tile (t : Fin cfg0.N) : Fin 32 := ⟨t.val, lt_of_lt_of_eq t.isLt N_0⟩

/-- The prediction tile staged at point t, at pixel y, is the prediction array at the tile's pixel. -/
theorem iblk0_apply (c : Dev nD) (t : Fin cfg0.N) (y : S1x512x1024.Idx) :
    (iblk m c 0 t : Vec F S1x512x1024 .f32) y = m ((c : Thread nD τ).loc main_arg0) (Cert.CountSpec.tileIdx (tile t) y) := by
  have hi := idx_in0 t
  have h1 : (y 1).val < 512 := (y 1).isLt
  have h0 : (y 0).val < 1 := (y 0).isLt
  unfold iblk
  rw [View.read_apply]
  show V m c main_arg0 _ = _
  rw [V_main_arg0]
  refine congrArg _ (funext fun a => Fin.ext ?_)
  match a with
  | ⟨0, _⟩ => show win0_0.index t 0 * 1 + 1 * (y 0).val = t.val / 2; rw [hi.1]; omega
  | ⟨1, _⟩ => show win0_0.index t 1 * 512 + 1 * (y 1).val = 512 * (t.val % 2) + (y 1).val; rw [hi.2.1]; omega
  | ⟨2, _⟩ => show win0_0.index t 2 * 1024 + 1 * (y 2).val = (y 2).val; rw [hi.2.2]; omega

/-- The label tile likewise. -/
theorem iblk1_apply (c : Dev nD) (t : Fin cfg0.N) (y : S1x512x1024.Idx) :
    (iblk m c 1 t : Vec F S1x512x1024 .i32) y = m ((c : Thread nD τ).loc main_arg1) (Cert.CountSpec.tileIdx (tile t) y) := by
  have hi := idx_in1 t
  have h1 : (y 1).val < 512 := (y 1).isLt
  have h0 : (y 0).val < 1 := (y 0).isLt
  unfold iblk
  rw [View.read_apply]
  show V m c main_arg1 _ = _
  rw [V_main_arg1]
  refine congrArg _ (funext fun a => Fin.ext ?_)
  match a with
  | ⟨0, _⟩ => show win0_1.index t 0 * 1 + 1 * (y 0).val = t.val / 2; rw [hi.1]; omega
  | ⟨1, _⟩ => show win0_1.index t 1 * 512 + 1 * (y 1).val = 512 * (t.val % 2) + (y 1).val; rw [hi.2.1]; omega
  | ⟨2, _⟩ => show win0_1.index t 2 * 1024 + 1 * (y 2).val = (y 2).val; rw [hi.2.2]; omega

/-- The staging contents after a point do not depend on how the point's number is spelt. -/
theorem outsAt_congr (c : Dev nD) {n n' : ℕ} (e : n = n') (hn : n < cfg0.N) (hn' : n' < cfg0.N) :
    outsAt0 m c n hn = outsAt0 m c n' hn' := by subst e; rfl

/-- What group g's output block holds after the group's last point (zeros for a g past the grid). -/
def lastOf (c : Dev nD) (g : ℕ) : Vec F S1x8x128 .f32 :=
  if h : 16 * g + 15 < cfg0.N then outsAt0 m c (16 * g + 15) h else fun _ => Scalar.ofBits .f32 0x00000000#32

/-- The result array the write-backs leave: block g is group g's block after its last point. -/
def Gfin (c : Dev nD) : Buf (Elt F) ((cfg0.win 2).arr.view.loc (c.tc : Thread nD τ)) :=
  fun i => lastOf m c (i 0).val (ix3 (0 : Fin 1) (⟨(i 1).val, (i 1).isLt⟩ : Fin 8) (⟨(i 2).val, (i 2).isLt⟩ : Fin 128))

/-- Each write-back (after points 15 and 31) writes its group's block of that array. -/
theorem flushed_eq (c : Dev nD) (t : Fin cfg0.N) (hf : (cfg0.win 2).flush t = true) :
    (dats m 0 c).flushed 2 t = ((cfg0.win 2).blk t).view.read (Elt F) (Gfin m c) := by
  have h := (flush0_2 t).mp hf
  have hio := idx_out t
  show (cfg0.win 2).cut (grid0.coords t) ((dats m 0 c).after 2 t) = _
  rw [after0_2]
  funext y
  rw [View.read_apply]
  have hlt : t.val < 32 := lt_of_lt_of_eq t.isLt (show cfg0.N = 32 from N_0)
  have y0 : (y 0).val < 1 := (y 0).isLt
  have e0 : ((((cfg0.win 2).blk t).view.emb y) 0).val = t.val / 16 := by
    show win0_2.index t 0 * 1 + 1 * (y 0).val = t.val / 16
    rw [hio.1]; omega
  have e1 : ((((cfg0.win 2).blk t).view.emb y) 1).val = (y 1).val := by
    show win0_2.index t 1 * 8 + 1 * (y 1).val = (y 1).val
    rw [hio.2.1]; omega
  have e2 : ((((cfg0.win 2).blk t).view.emb y) 2).val = (y 2).val := by
    show win0_2.index t 2 * 128 + 1 * (y 2).val = (y 2).val
    rw [hio.2.2]; omega
  show outsAt0 m c t.val t.isLt _ = lastOf m c ((((cfg0.win 2).blk t).view.emb y) 0).val _
  rw [e0]
  have ht : 16 * (t.val / 16) + 15 = t.val := by omega
  unfold lastOf
  rw [dif_pos (lt_of_eq_of_lt ht t.isLt), outsAt_congr m c ht.symm t.isLt (lt_of_eq_of_lt ht t.isLt)]
  refine congrArg _ (funext fun a => Fin.ext ?_)
  match a with
  | ⟨0, _⟩ => show (y 0).val = 0; omega
  | ⟨1, _⟩ => exact e1.symm
  | ⟨2, _⟩ => exact e2.symm

theorem h15 : 15 < cfg0.N := by rw [show cfg0.N = 32 from N_0]; decide
theorem h31 : 31 < cfg0.N := by rw [show cfg0.N = 32 from N_0]; decide
/-- The two points after which the output is written back. -/
abbrev t15 : Fin cfg0.N := ⟨15, h15⟩
abbrev t31 : Fin cfg0.N := ⟨31, h31⟩

/-- The two written-back blocks tile the [2, 8, 128] array, so it ends holding `Gfin`. -/
theorem final_out (c : Dev nD) : (dats m 0 c).arrAt 2 cfg0.N = Gfin m c :=
  (dats m 0 c).arrAt_eq_of_cover 2 (Gfin m c) (flushed_eq m c) fun i => by
    have hi0 : (i 0).val < 2 := (i 0).isLt
    have hi1 : (i 1).val < 8 := (i 1).isLt
    have hi2 : (i 2).val < 128 := (i 2).isLt
    rcases (show (i 0).val = 0 ∨ (i 0).val = 1 by omega) with h0 | h0
    · refine ⟨t15, (flush0_2 t15).mpr rfl, ?_⟩
      show i ∈ ((View.whole main_v0).slice (win0_2.rect t15)).set
      rw [View.set_slice_whole, Rect.mem_set_unit]
      intro a
      match a with
      | ⟨0, _⟩ =>
        show win0_2.index t15 0 * win0_2.size 0 ≤ (i 0 : ℕ) ∧ (i 0 : ℕ) < win0_2.index t15 0 * win0_2.size 0 + win0_2.xsize (grid0.coords t15) 0
        rw [show win0_2.index t15 0 * win0_2.size 0 = 0 from by decide +kernel, show win0_2.xsize (grid0.coords t15) 0 = 1 from by decide +kernel]; omega
      | ⟨1, _⟩ =>
        show win0_2.index t15 1 * win0_2.size 1 ≤ (i 1 : ℕ) ∧ (i 1 : ℕ) < win0_2.index t15 1 * win0_2.size 1 + win0_2.xsize (grid0.coords t15) 1
        rw [show win0_2.index t15 1 * win0_2.size 1 = 0 from by decide +kernel, show win0_2.xsize (grid0.coords t15) 1 = 8 from by decide +kernel]; omega
      | ⟨2, _⟩ =>
        show win0_2.index t15 2 * win0_2.size 2 ≤ (i 2 : ℕ) ∧ (i 2 : ℕ) < win0_2.index t15 2 * win0_2.size 2 + win0_2.xsize (grid0.coords t15) 2
        rw [show win0_2.index t15 2 * win0_2.size 2 = 0 from by decide +kernel, show win0_2.xsize (grid0.coords t15) 2 = 128 from by decide +kernel]; omega
    · refine ⟨t31, (flush0_2 t31).mpr rfl, ?_⟩
      show i ∈ ((View.whole main_v0).slice (win0_2.rect t31)).set
      rw [View.set_slice_whole, Rect.mem_set_unit]
      intro a
      match a with
      | ⟨0, _⟩ =>
        show win0_2.index t31 0 * win0_2.size 0 ≤ (i 0 : ℕ) ∧ (i 0 : ℕ) < win0_2.index t31 0 * win0_2.size 0 + win0_2.xsize (grid0.coords t31) 0
        rw [show win0_2.index t31 0 * win0_2.size 0 = 1 from by decide +kernel, show win0_2.xsize (grid0.coords t31) 0 = 1 from by decide +kernel]; omega
      | ⟨1, _⟩ =>
        show win0_2.index t31 1 * win0_2.size 1 ≤ (i 1 : ℕ) ∧ (i 1 : ℕ) < win0_2.index t31 1 * win0_2.size 1 + win0_2.xsize (grid0.coords t31) 1
        rw [show win0_2.index t31 1 * win0_2.size 1 = 0 from by decide +kernel, show win0_2.xsize (grid0.coords t31) 1 = 8 from by decide +kernel]; omega
      | ⟨2, _⟩ =>
        show win0_2.index t31 2 * win0_2.size 2 ≤ (i 2 : ℕ) ∧ (i 2 : ℕ) < win0_2.index t31 2 * win0_2.size 2 + win0_2.xsize (grid0.coords t31) 2
        rw [show win0_2.index t31 2 * win0_2.size 2 = 0 from by decide +kernel, show win0_2.xsize (grid0.coords t31) 2 = 128 from by decide +kernel]; omega

/-- So entry (g, r, k) of the result array is group g's block's entry (0, r, k) after the group's last point. -/
theorem final_entry (c : Dev nD) (g : Fin 2) (r : Fin 8) (kk : Fin 128) :
    (dats m 0 c).arrAt 2 cfg0.N (ix3 g r kk) = lastOf m c g.val (ix3 (0 : Fin 1) r kk) := by
  rw [final_out]; rfl

end Cert.KernelIdeal.Blocks

end
-- ==== Proof.KernelPieces.lean ====
/-
  What one grid point's body leaves in the output block, as a list of stores. The body computes, for the tile it
  is given, twelve counts (per class k: pixels predicted k, pixels labelled k, pixels both) and adds them into
  rows 0, 1, 2 of the output block, columns 0..3: three stores of a [1,1,4] row, each the row loaded just before
  plus a vector whose column k is the count for class k. At the first point of each group of sixteen the block is
  zeroed first (a fourth, whole-block store, made before the others).
-/
import proofs.«145284_j10900626997841_2_alg».proof.Proof.Gen.KernelIdeal.Frame
import Idealize.ShloMosaic.Lib.WritesUnit
import Idealize.ShloMosaic.Lib.Pipeline.Value
set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The lane numbers 0..3 of a [1,4] row. -/
abbrev lanes : IVec S1x4 32 := iota .tc S1x4 32 [1] iota_S1x4_d1_w32

/-- Row 0's new contents: the row as loaded plus the per-class counts of predictions. -/
def rowPay0 (X0 : Vec F S1x512x1024 .f32) (old : Vec F S1x1x4 .f32) : FVec F S1x1x4 .f32 :=
  k0_pay32 lanes (k0_pay23 (k0_pay4 X0) lanes (k0_pay17 (k0_pay4 X0) lanes (k0_pay5 (F := F)) (k0_pay10 X0))) (k0_pay29 (k0_pay4 X0)) old

/-- Row 1's: plus the per-class counts of labels. -/
def rowPay1 (X1 : Vec F S1x512x1024 .i32) (old : Vec F S1x1x4 .f32) : FVec F S1x1x4 .f32 :=
  k0_pay33 lanes (k0_pay24 (k0_pay3 X1) lanes (k0_pay18 (k0_pay3 X1) lanes (k0_pay6 (F := F)) (k0_pay11 (F := F) X1))) (k0_pay27 (k0_pay3 X1)) old

/-- Row 2's: plus the per-class counts of pixels where prediction and label are both the class. -/
def rowPay2 (X0 : Vec F S1x512x1024 .f32) (X1 : Vec F S1x512x1024 .i32) (old : Vec F S1x1x4 .f32) : FVec F S1x1x4 .f32 :=
  k0_pay1 (k0_pay31 lanes (k0_pay25 (k0_pay3 X1) (k0_pay4 X0) lanes (k0_pay19 (k0_pay3 X1) (k0_pay4 X0) lanes (k0_pay7 (F := F)) (k0_pay12 X0 X1)))
    (k0_pay28 (k0_pay3 X1) (k0_pay4 X0))) old

/-- The three row rectangles and the whole block. -/
abbrev R0 : Rect S1x8x128 := Rect.unit (s := S1x8x128) ![0, 0, 0] S1x1x4.size inb_S1x8x128_S1x1x4_0_0_0
abbrev R1 : Rect S1x8x128 := Rect.unit (s := S1x8x128) ![0, 1, 0] S1x1x4.size inb_S1x8x128_S1x1x4_0_1_0
abbrev R2 : Rect S1x8x128 := Rect.unit (s := S1x8x128) ![0, 2, 0] S1x1x4.size inb_S1x8x128_S1x1x4_0_2_0
abbrev RW : Rect S1x8x128 := Rect.unit (s := S1x8x128) ![0, 0, 0] S1x8x128.size inb_S1x8x128_S1x8x128_0_0_0
abbrev RI : Rect S1x512x1024 := Rect.unit (s := S1x512x1024) ![0, 0, 0] S1x512x1024.size inb_S1x512x1024_S1x512x1024_0_0_0

/-- An ordinary point's stores (last first): rows 2, 1, 0, each over the row as it stood before the point. -/
theorem piecesB (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x8x128 .f32) (harg5 : arg5.IsWhole) (hc0 : ¬cond0_0 i)
    (x0 : Vec F S1x512x1024 .f32) (x1 : Vec F S1x512x1024 .i32) (xo2 : Vec F S1x8x128 .f32) :
    (kernelRun0_B c i arg3 harg3 arg4 harg4 arg5 harg5 hc0 x0 x1 xo2).1 =
      [⟨R2, rowPay2 (View.readAt (Elt F) arg3.view RI.toLoadRect (harg3.unread x0)) (View.readAt (Elt F) arg4.view RI.toLoadRect (harg4.unread x1))
              (View.readAt (Elt F) arg5.view R2.toLoadRect (harg5.unread xo2))⟩,
       ⟨R1, rowPay1 (View.readAt (Elt F) arg4.view RI.toLoadRect (harg4.unread x1)) (View.readAt (Elt F) arg5.view R1.toLoadRect (harg5.unread xo2))⟩,
       ⟨R0, rowPay0 (View.readAt (Elt F) arg3.view RI.toLoadRect (harg3.unread x0)) (View.readAt (Elt F) arg5.view R0.toLoadRect (harg5.unread xo2))⟩] := by
  unfold kernelRun0_B
  dsimp only
  sl_unfold_run_names
  rfl

/-- The zeroing store of a group's first point, and that point's three row stores: each row is loaded back from what the
    stores before it left (the zeros, since the rows are disjoint). -/
def pZ : View.Piece (Elt F) S1x8x128 .f32 := ⟨RW, k0_pay2 (F := F)⟩
def pA0 (v : View sig .tc .vmem S1x8x128 .f32) (X0 : Vec F S1x512x1024 .f32) : View.Piece (Elt F) S1x8x128 .f32 :=
  ⟨R0, rowPay0 X0 (v.readCov [pZ] R0.toLoadRect)⟩
def pA1 (v : View sig .tc .vmem S1x8x128 .f32) (X0 : Vec F S1x512x1024 .f32) (X1 : Vec F S1x512x1024 .i32) : View.Piece (Elt F) S1x8x128 .f32 :=
  ⟨R1, rowPay1 X1 (v.readCov [pA0 v X0, pZ] R1.toLoadRect)⟩
def pA2 (v : View sig .tc .vmem S1x8x128 .f32) (X0 : Vec F S1x512x1024 .f32) (X1 : Vec F S1x512x1024 .i32) : View.Piece (Elt F) S1x8x128 .f32 :=
  ⟨R2, rowPay2 X0 X1 (v.readCov [pA1 v X0 X1, pA0 v X0, pZ] R2.toLoadRect)⟩

/-- A group's first point's stores (last first): rows 2, 1, 0, then the zeroing of the whole block. -/
theorem piecesA (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x8x128 .f32) (harg5 : arg5.IsWhole) (hc0 : cond0_0 i)
    (x0 : Vec F S1x512x1024 .f32) (x1 : Vec F S1x512x1024 .i32) :
    (kernelRun0_A c i arg3 harg3 arg4 harg4 arg5 harg5 hc0 x0 x1).1 =
      [pA2 arg5.view (View.readAt (Elt F) arg3.view RI.toLoadRect (harg3.unread x0)) (View.readAt (Elt F) arg4.view RI.toLoadRect (harg4.unread x1)),
       pA1 arg5.view (View.readAt (Elt F) arg3.view RI.toLoadRect (harg3.unread x0)) (View.readAt (Elt F) arg4.view RI.toLoadRect (harg4.unread x1)),
       pA0 arg5.view (View.readAt (Elt F) arg3.view RI.toLoadRect (harg3.unread x0)),
       pZ] := by
  unfold kernelRun0_A
  dsimp only
  sl_unfold_run_names
  rfl

/-- A load of a whole input block reads the block. -/
theorem load_whole_f (arg3 : Memref sig .tc .vmem S1x512x1024 .f32) (harg3 : arg3.IsWhole) (x0 : Vec F S1x512x1024 .f32) :
    View.readAt (Elt F) arg3.view RI.toLoadRect (harg3.unread x0) = x0 := by
  have hz : (![0, 0, 0] : Fin S1x512x1024.rank → ℕ) = fun _ => 0 := by funext a; fin_cases a <;> rfl
  rw [View.readAt_eq_ld, harg3.read_unread]
  exact View.ld_unit_zero (S := S1x512x1024) hz _ x0
theorem load_whole_i (arg4 : Memref sig .tc .vmem S1x512x1024 .i32) (harg4 : arg4.IsWhole) (x1 : Vec F S1x512x1024 .i32) :
    View.readAt (Elt F) arg4.view RI.toLoadRect (harg4.unread x1) = x1 := by
  have hz : (![0, 0, 0] : Fin S1x512x1024.rank → ℕ) = fun _ => 0 := by funext a; fin_cases a <;> rfl
  rw [View.readAt_eq_ld, harg4.read_unread]
  exact View.ld_unit_zero (S := S1x512x1024) hz _ x1

end Cert.KernelIdeal.Pieces

end
-- ==== Proof.KernelBlock.lean ====
/-
  What one grid point leaves at the twelve entries of the output block that matter — rows 0, 1, 2, columns 0..3 —,
  read off the point's stores: an ordinary point leaves there the entry as it stood plus the row's count vector at
  the column; a group's first point the same over a zeroed block. Newest store wins: an entry of row r is under
  the row-r store and under no later one.
-/
import proofs.«145284_j10900626997841_2_alg».proof.Proof.Gen.KernelIdeal.Frame
import proofs.«145284_j10900626997841_2_alg».proof.Proof.KernelPieces
import Idealize.ShloMosaic.Lib.WritesUnit
import Idealize.ShloMosaic.Lib.Pipeline.Value
import Idealize.ShloMosaic.Lib.ValueIdx
set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

/-- Entry (0, r, k) of the block, k a class. -/
abbrev ent (r : Fin 8) (k : Fin 4) : S1x8x128.Idx := ix3 (0 : Fin 1) r (⟨k.val, by omega⟩ : Fin 128)
/-- Entry (0, 0, k) of a stored row. -/
abbrev rent (k : Fin 4) : S1x1x4.Idx := ix3 (0 : Fin 1) (0 : Fin 1) k

theorem hx0 (k : Fin 4) : ∀ a : Fin S1x8x128.rank, ((ent 0 k) a).val = (![0, 0, 0] : Fin 3 → ℕ) a + ((rent k) a).val := fun a =>
  match a with | ⟨0, _⟩ => rfl | ⟨1, _⟩ => rfl | ⟨2, _⟩ => (Nat.zero_add _).symm
theorem hx1 (k : Fin 4) : ∀ a : Fin S1x8x128.rank, ((ent 1 k) a).val = (![0, 1, 0] : Fin 3 → ℕ) a + ((rent k) a).val := fun a =>
  match a with | ⟨0, _⟩ => rfl | ⟨1, _⟩ => rfl | ⟨2, _⟩ => (Nat.zero_add _).symm
theorem hx2 (k : Fin 4) : ∀ a : Fin S1x8x128.rank, ((ent 2 k) a).val = (![0, 2, 0] : Fin 3 → ℕ) a + ((rent k) a).val := fun a =>
  match a with | ⟨0, _⟩ => rfl | ⟨1, _⟩ => rfl | ⟨2, _⟩ => (Nat.zero_add _).symm

/-- A row loaded from known contents, at column k, is the contents' entry. -/
theorem ld_row0 (X : S1x8x128.Idx → Elt F .f32) (k : Fin 4) : View.ld X R0 (rent k) = X (ent 0 k) :=
  congrArg X (funext fun a => Fin.ext (match a with | ⟨0, _⟩ => rfl | ⟨1, _⟩ => rfl | ⟨2, _⟩ => by show 0 + 1 * k.val = k.val; omega))
theorem ld_row1 (X : S1x8x128.Idx → Elt F .f32) (k : Fin 4) : View.ld X R1 (rent k) = X (ent 1 k) :=
  congrArg X (funext fun a => Fin.ext (match a with | ⟨0, _⟩ => rfl | ⟨1, _⟩ => rfl | ⟨2, _⟩ => by show 0 + 1 * k.val = k.val; omega))
theorem ld_row2 (X : S1x8x128.Idx → Elt F .f32) (k : Fin 4) : View.ld X R2 (rent k) = X (ent 2 k) :=
  congrArg X (funext fun a => Fin.ext (match a with | ⟨0, _⟩ => rfl | ⟨1, _⟩ => rfl | ⟨2, _⟩ => by show 0 + 1 * k.val = k.val; omega))

section ordinary
variable (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x8x128 .f32) (harg5 : arg5.IsWhole) (hc0 : ¬cond0_0 i)
    (x0 : Vec F S1x512x1024 .f32) (x1 : Vec F S1x512x1024 .i32) (xo2 : Vec F S1x8x128 .f32)

/-- An ordinary point, row 2: the newest store. -/
theorem outB_row2 (k : Fin 4) :
    out0_B_2 c i arg3 harg3 arg4 harg4 arg5 harg5 hc0 x0 x1 xo2 (ent 2 k) = rowPay2 x0 x1 (View.ld xo2 R2) (rent k) := by
  unfold out0_B_2
  rw [piecesB, load_whole_f, load_whole_i, View.readAt_eq_ld, View.readAt_eq_ld, View.readAt_eq_ld, harg5.read_unread]
  exact View.read_writes_cons_unit_of_mem arg5.view (harg5.unread xo2) inb_S1x8x128_S1x1x4_0_2_0 _ _ (ent 2 k) (rent k) rfl (hx2 k)

/-- Row 1: not under the row-2 store, under the row-1 store. -/
theorem outB_row1 (k : Fin 4) :
    out0_B_2 c i arg3 harg3 arg4 harg4 arg5 harg5 hc0 x0 x1 xo2 (ent 1 k) = rowPay1 x1 (View.ld xo2 R1) (rent k) := by
  unfold out0_B_2
  rw [piecesB, load_whole_f, load_whole_i, View.readAt_eq_ld, View.readAt_eq_ld, View.readAt_eq_ld, harg5.read_unread]
  refine (View.read_writes_cons_unit_of_not_mem arg5.view (harg5.unread xo2) inb_S1x8x128_S1x1x4_0_2_0 _ _ (ent 1 k) rfl (1 : Fin 3) (Or.inl (show (1 : ℕ) < 2 by decide))).trans ?_
  exact View.read_writes_cons_unit_of_mem arg5.view (harg5.unread xo2) inb_S1x8x128_S1x1x4_0_1_0 _ _ (ent 1 k) (rent k) rfl (hx1 k)

/-- Row 0: under the row-0 store only. -/
theorem outB_row0 (k : Fin 4) :
    out0_B_2 c i arg3 harg3 arg4 harg4 arg5 harg5 hc0 x0 x1 xo2 (ent 0 k) = rowPay0 x0 (View.ld xo2 R0) (rent k) := by
  unfold out0_B_2
  rw [piecesB, load_whole_f, load_whole_i, View.readAt_eq_ld, View.readAt_eq_ld, View.readAt_eq_ld, harg5.read_unread]
  refine (View.read_writes_cons_unit_of_not_mem arg5.view (harg5.unread xo2) inb_S1x8x128_S1x1x4_0_2_0 _ _ (ent 0 k) rfl (1 : Fin 3) (Or.inl (show (0 : ℕ) < 2 by decide))).trans ?_
  refine (View.read_writes_cons_unit_of_not_mem arg5.view (harg5.unread xo2) inb_S1x8x128_S1x1x4_0_1_0 _ _ (ent 0 k) rfl (1 : Fin 3) (Or.inl (show (0 : ℕ) < 1 by decide))).trans ?_
  exact View.read_writes_cons_unit_of_mem arg5.view (harg5.unread xo2) inb_S1x8x128_S1x1x4_0_0_0 _ _ (ent 0 k) (rent k) rfl (hx0 k)

end ordinary

section first
variable (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x8x128 .f32) (harg5 : arg5.IsWhole) (hc0 : cond0_0 i)
    (x0 : Vec F S1x512x1024 .f32) (x1 : Vec F S1x512x1024 .i32)

theorem zoff (a : Fin S1x8x128.rank) (n : ℕ) : n = (![0, 0, 0] : Fin 3 → ℕ) a + n :=
  match a with | ⟨0, _⟩ => (Nat.zero_add _).symm | ⟨1, _⟩ => (Nat.zero_add _).symm | ⟨2, _⟩ => (Nat.zero_add _).symm

/-- The zeroing store's payload is zero everywhere. -/
theorem pay2_apply (y : S1x8x128.Idx) : k0_pay2 (F := F) y = Scalar.ofBits .f32 0x00000000#32 := rfl

/-- At a group's first point each row is loaded back as zeros: under the zeroing store and under no row store made before the load. -/
theorem oldA0 (v : View sig .tc .vmem S1x8x128 .f32) (k : Fin 4) :
    v.readCov [pZ (F := F)] R0.toLoadRect (rent k) = Scalar.ofBits .f32 0x00000000#32 := by
  unfold View.readCov
  rw [View.readAt_apply]
  exact (View.read_writes_cons_unit_of_mem v v.junk inb_S1x8x128_S1x8x128_0_0_0 _ _ _ (R0.toLoadRect.idx (rent k)) rfl
    (fun a => zoff a _)).trans (pay2_apply _)
theorem oldA1 (v : View sig .tc .vmem S1x8x128 .f32) (X0 : Vec F S1x512x1024 .f32) (k : Fin 4) :
    v.readCov [pA0 v X0, pZ] R1.toLoadRect (rent k) = Scalar.ofBits .f32 0x00000000#32 := by
  unfold View.readCov
  rw [View.readAt_apply]
  refine (View.read_writes_cons_unit_of_not_mem v v.junk inb_S1x8x128_S1x1x4_0_0_0 _ _ (R1.toLoadRect.idx (rent k)) rfl (1 : Fin 3) (Or.inr (show (0 : ℕ) + 1 ≤ 1 + 1 * 0 by decide))).trans ?_
  exact (View.read_writes_cons_unit_of_mem v v.junk inb_S1x8x128_S1x8x128_0_0_0 _ _ _ (R1.toLoadRect.idx (rent k)) rfl
    (fun a => zoff a _)).trans (pay2_apply _)
theorem oldA2 (v : View sig .tc .vmem S1x8x128 .f32) (X0 : Vec F S1x512x1024 .f32) (X1 : Vec F S1x512x1024 .i32) (k : Fin 4) :
    v.readCov [pA1 v X0 X1, pA0 v X0, pZ] R2.toLoadRect (rent k) = Scalar.ofBits .f32 0x00000000#32 := by
  unfold View.readCov
  rw [View.readAt_apply]
  refine (View.read_writes_cons_unit_of_not_mem v v.junk inb_S1x8x128_S1x1x4_0_1_0 _ _ (R2.toLoadRect.idx (rent k)) rfl (1 : Fin 3) (Or.inr (show (1 : ℕ) + 1 ≤ 2 + 1 * 0 by decide))).trans ?_
  refine (View.read_writes_cons_unit_of_not_mem v v.junk inb_S1x8x128_S1x1x4_0_0_0 _ _ (R2.toLoadRect.idx (rent k)) rfl (1 : Fin 3) (Or.inr (show (0 : ℕ) + 1 ≤ 2 + 1 * 0 by decide))).trans ?_
  exact (View.read_writes_cons_unit_of_mem v v.junk inb_S1x8x128_S1x8x128_0_0_0 _ _ _ (R2.toLoadRect.idx (rent k)) rfl
    (fun a => zoff a _)).trans (pay2_apply _)

/-- A group's first point, rows 2, 1, 0: the row's store over the loaded-back row. -/
theorem outA_row2 (k : Fin 4) :
    out0_A_2 c i arg3 harg3 arg4 harg4 arg5 harg5 hc0 x0 x1 (ent 2 k)
      = rowPay2 x0 x1 (arg5.view.readCov [pA1 arg5.view x0 x1, pA0 arg5.view x0, pZ] R2.toLoadRect) (rent k) := by
  unfold out0_A_2
  rw [piecesA, load_whole_f, load_whole_i]
  exact View.read_writes_cons_unit_of_mem VO0_2 VO0_2.junk inb_S1x8x128_S1x1x4_0_2_0 _ _ (ent 2 k) (rent k) rfl (hx2 k)
theorem outA_row1 (k : Fin 4) :
    out0_A_2 c i arg3 harg3 arg4 harg4 arg5 harg5 hc0 x0 x1 (ent 1 k)
      = rowPay1 x1 (arg5.view.readCov [pA0 arg5.view x0, pZ] R1.toLoadRect) (rent k) := by
  unfold out0_A_2
  rw [piecesA, load_whole_f, load_whole_i]
  refine (View.read_writes_cons_unit_of_not_mem VO0_2 VO0_2.junk inb_S1x8x128_S1x1x4_0_2_0 _ _ (ent 1 k) rfl (1 : Fin 3) (Or.inl (show (1 : ℕ) < 2 by decide))).trans ?_
  exact View.read_writes_cons_unit_of_mem VO0_2 VO0_2.junk inb_S1x8x128_S1x1x4_0_1_0 _ _ (ent 1 k) (rent k) rfl (hx1 k)
theorem outA_row0 (k : Fin 4) :
    out0_A_2 c i arg3 harg3 arg4 harg4 arg5 harg5 hc0 x0 x1 (ent 0 k)
      = rowPay0 x0 (arg5.view.readCov [pZ] R0.toLoadRect) (rent k) := by
  unfold out0_A_2
  rw [piecesA, load_whole_f, load_whole_i]
  refine (View.read_writes_cons_unit_of_not_mem VO0_2 VO0_2.junk inb_S1x8x128_S1x1x4_0_2_0 _ _ (ent 0 k) rfl (1 : Fin 3) (Or.inl (show (0 : ℕ) < 2 by decide))).trans ?_
  refine (View.read_writes_cons_unit_of_not_mem VO0_2 VO0_2.junk inb_S1x8x128_S1x1x4_0_1_0 _ _ (ent 0 k) rfl (1 : Fin 3) (Or.inl (show (0 : ℕ) < 1 by decide))).trans ?_
  exact View.read_writes_cons_unit_of_mem VO0_2 VO0_2.junk inb_S1x8x128_S1x1x4_0_0_0 _ _ (ent 0 k) (rent k) rfl (hx0 k)

end first

end Cert.KernelIdeal.Pieces

end
-- ==== Proof.RowValue.lean ====
/-
  The three rows one grid point stores, read at the ideal instance. Each stored row is the row loaded just before plus
  four accumulation steps from a zero row: step j adds, in every lane, (the number of set bits of the class-j mask of
  the tile) × (1 in lane j, 0 elsewhere). The number of set bits is computed as a float: the mask widened to 0/1
  words, converted, summed along each of the 512 rows and then down the column of row sums. Exactly: lane k of the
  stored row is lane k of the loaded row plus the number of tile pixels whose class-k mask bit is set; the mask bits
  are "the truncated prediction is k", "the label is k", and their conjunction.
-/
import proofs.«145284_j10900626997841_2_alg».proof.Proof.KernelPieces
import proofs.«145284_j10900626997841_2_alg».proof.Proof.CountSpec
import Idealize.ShloMosaic.Lib.ValueLayout
import Idealize.ShloMosaic.Lib.ValueIdx
import Idealize.ShloMosaic.PureOps.Ideal.Laws

noncomputable section

namespace Cert.KernelIdeal.Pieces

open Cert.KernelIdeal Cert.KernelIdeal.Gen
open Idealize.ShloMosaic Idealize.ShloMosaic.ValueIdx

section Generic
variable {F : FTy → Type} [FloatOps F]

/-- The number of set bits of a [512, 1024] mask as the kernel computes it: the 0/1 floats summed along each row, then down
    the column of row sums. -/
def cnt1 (b : IVec S512x1024 1) : FVec F S1 .f32 :=
  multiReduction .add [0] S1
    (shapeCast S512x1
      (multiReduction .add [1] S512 (sitofp .f32 (extui 32 b natLt_1_32)) 0x00000000#32 reduces_S512x1024_S512 (.inl rfl) rfl)
      shapeCasts_S512_S512x1)
    0x00000000#32 reduces_S512x1_S1 (.inl rfl) rfl
/-- The same as a [1, 1] vector. -/
def cntv (b : IVec S512x1024 1) : FVec F S1x1 .f32 := shapeCast S1x1 (cnt1 (F := F) b) shapeCasts_S1_S1x1
/-- The mask "the word is `c`". -/
def maskEq (v : IVec S512x1024 32) (c : BitVec 32) : IVec S512x1024 1 := cmpi .eq v (broadcast S512x1024 c)
/-- The one-hot row: 1 in the lane whose number is `c`, 0 elsewhere. -/
def oh (v10 : IVec S1x4 32) (c : BitVec 32) : FVec F S1x4 .f32 :=
  sitofp .f32 (extui 32 (cmpi .eq v10 (broadcast S1x4 c)) natLt_1_32)
/-- One accumulation step: the row so far plus a count spread over the lanes times a one-hot row. -/
def acc (a : FVec F S1x4 .f32) (c : FVec F S1x1 .f32) (o : FVec F S1x4 .f32) : FVec F S1x4 .f32 :=
  addf a (mulf (broadcastTo S1x4 c broadcasts_S1x1_S1x4) o)
/-- The zero row the accumulation starts from. -/
def zero4 : FVec F S1x4 .f32 := broadcast S1x4 (Scalar.ofBits .f32 0x00000000#32)
/-- The stored row: the loaded row plus the accumulated one. -/
def fin (old : Vec F S1x1x4 .f32) (t : FVec F S1x4 .f32) : FVec F S1x1x4 .f32 :=
  shapeCast S1x1x4 (addf (shapeCast S1x4 old shapeCasts_S1x1x4_S1x4) t) shapeCasts_S1x4_S1x1x4
/-- Four accumulation steps from zero, one per class, over four masks. -/
def row (m0 m1 m2 m3 : IVec S512x1024 1) (old : Vec F S1x1x4 .f32) : FVec F S1x1x4 .f32 :=
  fin old (acc (acc (acc (acc (zero4 (F := F)) (cntv m0) (oh lanes 0#32)) (cntv m1) (oh lanes 1#32)) (cntv m2) (oh lanes 2#32))
    (cntv m3) (oh lanes 3#32))

theorem rowPay0_eq (X0 : Vec F S1x512x1024 .f32) (old : Vec F S1x1x4 .f32) :
    rowPay0 X0 old = row (maskEq (k0_pay4 X0) 0#32) (maskEq (k0_pay4 X0) 1#32) (maskEq (k0_pay4 X0) 2#32)
      (maskEq (k0_pay4 X0) 3#32) old := rfl

theorem rowPay1_eq (X1 : Vec F S1x512x1024 .i32) (old : Vec F S1x1x4 .f32) :
    rowPay1 (F := F) X1 old = row (maskEq (k0_pay3 (F := F) X1) 0#32) (maskEq (k0_pay3 (F := F) X1) 1#32) (maskEq (k0_pay3 (F := F) X1) 2#32)
      (maskEq (k0_pay3 (F := F) X1) 3#32) old := rfl

theorem rowPay2_eq (X0 : Vec F S1x512x1024 .f32) (X1 : Vec F S1x512x1024 .i32) (old : Vec F S1x1x4 .f32) :
    rowPay2 X0 X1 old = row (andi (maskEq (k0_pay4 X0) 0#32) (maskEq (k0_pay3 (F := F) X1) 0#32))
      (andi (maskEq (k0_pay4 X0) 1#32) (maskEq (k0_pay3 (F := F) X1) 1#32))
      (andi (maskEq (k0_pay4 X0) 2#32) (maskEq (k0_pay3 (F := F) X1) 2#32))
      (andi (maskEq (k0_pay4 X0) 3#32) (maskEq (k0_pay3 (F := F) X1) 3#32)) old := rfl

end Generic

/-! ## Reading the pieces at the ideal instance -/

/-- A natural number as an extended real. -/
abbrev natE (n : ℕ) : EReal := ((n : ℝ) : EReal)

/-- A sum of natural numbers read in the extended reals is the sum of the readings. -/
theorem natE_sum {ι : Type} (s : Finset ι) (f : ι → ℕ) : ∑ i ∈ s, natE (f i) = natE (∑ i ∈ s, f i) := by
  classical
  induction s using Finset.induction_on with
  | empty => simp [natE]
  | insert a s ha ih =>
    rw [Finset.sum_insert ha, Finset.sum_insert ha, ih]
    show ((_ : ℝ) : EReal) + ((_ : ℝ) : EReal) = _
    rw [← EReal.coe_add, ← Nat.cast_add]

/-- A one-bit word is 0 or 1. -/
theorem bit01 (b : BitVec 1) : b = 0#1 ∨ b = 1#1 := by
  by_cases h : b = 1#1
  · exact Or.inr h
  · exact Or.inl (eq_zero_of_ne_one h)

/-- A one-bit word widened to 32 bits and read as a float is 1 when the bit is set, 0 otherwise. -/
theorem bit_float (b : BitVec 1) :
    (FloatOps.sitofp (F := Ideal) .f32 (b.setWidth 32) : EReal) = natE (if b = 1#1 then 1 else 0) := by
  show (((b.setWidth 32).toInt : ℝ) : EReal) = _
  rcases bit01 b with h | h
  · subst h
    have e : ((0#1 : BitVec 1).setWidth 32).toInt = 0 := by decide
    rw [e, if_neg (by decide)]
    simp [natE]
  · subst h
    have e : ((1#1 : BitVec 1).setWidth 32).toInt = 1 := by decide
    rw [e, if_pos rfl]
    simp [natE]

/-- The source index over row `p` with column `q` inserted is `(p, q)`. -/
theorem lift_row (p : Fin 512) (q : Fin 1024) : reduces_S512x1024_S512.lift (ix1 p) q = ix2 p q := by
  funext c
  match c with
  | ⟨0, _⟩ => rfl
  | ⟨1, _⟩ => rfl

/-- The source index over the one result entry with row `p` inserted is `(p, 0)`. -/
theorem lift_col (p : Fin 512) : reduces_S512x1_S1.lift (ix1 (0 : Fin 1)) p = ix2 p (0 : Fin 1) := by
  funext c
  match c with
  | ⟨0, _⟩ => rfl
  | ⟨1, _⟩ => rfl

/-- The sum along a row. -/
theorem sum_rows (x : FVec Ideal S512x1024 .f32) (p : Fin 512) :
    multiReduction .add [1] S512 x 0x00000000#32 reduces_S512x1024_S512 (.inl rfl) rfl (ix1 p)
      = ∑ q : Fin 1024, x (ix2 p q) := by
  refine (Ideal.multiReduction_add_single x 0x00000000#32 reduces_S512x1024_S512 (.inl rfl) rfl (ix1 p)).trans ?_
  exact Finset.sum_congr rfl fun q _ => congrArg x (lift_row p q)

/-- The sum down the one column. -/
theorem sum_col (x : FVec Ideal S512x1 .f32) :
    multiReduction .add [0] S1 x 0x00000000#32 reduces_S512x1_S1 (.inl rfl) rfl (ix1 (0 : Fin 1))
      = ∑ p : Fin 512, x (ix2 p (0 : Fin 1)) := by
  refine (Ideal.multiReduction_add_single x 0x00000000#32 reduces_S512x1_S1 (.inl rfl) rfl (ix1 (0 : Fin 1))).trans ?_
  exact Finset.sum_congr rfl fun p _ => congrArg x (lift_col p)

/-- A [512] vector cast to [512, 1] reads, at `(p, 0)`, the vector at `p`. -/
theorem cast_col {α : Type} (x : S512.Idx → α) (p : Fin 512) :
    shapeCast S512x1 x shapeCasts_S512_S512x1 (ix2 p (0 : Fin 1)) = x (ix1 p) :=
  shapeCast_apply x shapeCasts_S512_S512x1 _ _ (by
    rw [Shape.rowMajor_val_one, Shape.rowMajor_val_two]
    show p.val = p.val * 1 + 0
    omega)

/-- A [1, 1] vector broadcast to [1, 4] reads its one entry everywhere. -/
theorem bcast_lane {α : Type} (c : S1x1.Idx → α) (k : Fin 4) :
    broadcastTo S1x4 c broadcasts_S1x1_S1x4 (ix2 (0 : Fin 1) k) = c (ix2 (0 : Fin 1) (0 : Fin 1)) := by
  refine broadcastTo_apply c broadcasts_S1x1_S1x4 (ix2 (0 : Fin 1) k) (ix2 (0 : Fin 1) (0 : Fin 1)) fun ax => ?_
  match ax with
  | ⟨0, _⟩ => rfl
  | ⟨1, _⟩ => rfl

/-- The kernel's count of a mask is the number of its set bits. -/
theorem cnt1_apply (b : IVec S512x1024 1) :
    cnt1 (F := Ideal) b (ix1 (0 : Fin 1)) = natE (Finset.univ.filter fun i : S512x1024.Idx => b i = 1#1).card := by
  unfold cnt1
  refine (sum_col _).trans ?_
  have h1 : ∀ p : Fin 512,
      shapeCast S512x1
        (multiReduction .add [1] S512 (sitofp (F := Ideal) .f32 (extui 32 b natLt_1_32)) 0x00000000#32 reduces_S512x1024_S512 (.inl rfl) rfl)
        shapeCasts_S512_S512x1 (ix2 p (0 : Fin 1))
      = ∑ q : Fin 1024, natE (if b (ix2 p q) = 1#1 then 1 else 0) := by
    intro p
    refine (cast_col _ p).trans ?_
    refine (sum_rows _ p).trans ?_
    exact Finset.sum_congr rfl fun q _ => bit_float (b (ix2 p q))
  refine (Finset.sum_congr rfl fun p _ => h1 p).trans ?_
  rw [← sum_idx2 (fun i : S512x1024.Idx => natE (if b i = 1#1 then 1 else 0)), natE_sum, Finset.card_filter]

theorem cntv_apply (b : IVec S512x1024 1) :
    cntv (F := Ideal) b (ix2 (0 : Fin 1) (0 : Fin 1)) = natE (Finset.univ.filter fun i : S512x1024.Idx => b i = 1#1).card := by
  unfold cntv
  exact (shapeCast_a_1a_apply _ shapeCasts_S1_S1x1 (0 : Fin 1) (0 : Fin 1)).trans (cnt1_apply b)

/-- The lane numbers. -/
theorem lanes_apply (k : Fin 4) : lanes (ix2 (0 : Fin 1) k) = BitVec.ofNat 32 k.val := by
  show BitVec.ofNat 32 (0 * 4 + k.val) = _
  rw [Nat.zero_mul, Nat.zero_add]

/-- A comparison bit is set exactly when the words are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.2 h
    rw [hb]
    exact ⟨fun h' => absurd h' (by decide), fun h' => absurd h' h⟩

/-- The one-hot row at a lane. -/
theorem oh_apply (c : BitVec 32) (k : Fin 4) :
    oh (F := Ideal) lanes c (ix2 (0 : Fin 1) k) = natE (if BitVec.ofNat 32 k.val = c then 1 else 0) := by
  show (FloatOps.sitofp (F := Ideal) .f32 ((IntOp.cmpi .eq (lanes (ix2 (0 : Fin 1) k)) c).setWidth 32) : EReal) = _
  rw [bit_float, lanes_apply]
  by_cases h : BitVec.ofNat 32 k.val = c
  · rw [if_pos ((cmpi_eq_one_iff _ _).2 h), if_pos h]
  · rw [if_neg (fun h' => h ((cmpi_eq_one_iff _ _).1 h')), if_neg h]

theorem acc_apply (a : FVec Ideal S1x4 .f32) (c : FVec Ideal S1x1 .f32) (o : FVec Ideal S1x4 .f32) (k : Fin 4) :
    acc a c o (ix2 (0 : Fin 1) k) = a (ix2 (0 : Fin 1) k) + c (ix2 (0 : Fin 1) (0 : Fin 1)) * o (ix2 (0 : Fin 1) k) := by
  show a _ + broadcastTo S1x4 c broadcasts_S1x1_S1x4 (ix2 (0 : Fin 1) k) * o _ = _
  rw [bcast_lane]

theorem zero4_apply (k : Fin 4) : zero4 (F := Ideal) (ix2 (0 : Fin 1) k) = 0 := by
  show Ideal.ofBits .f32 0x00000000#32 = 0
  simp [Ideal.ofBits, Ideal.ieee]

theorem fin_apply (old : Vec Ideal S1x1x4 .f32) (t : FVec Ideal S1x4 .f32) (k : Fin 4) :
    fin old t (ix3 (0 : Fin 1) (0 : Fin 1) k) = old (ix3 (0 : Fin 1) (0 : Fin 1) k) + t (ix2 (0 : Fin 1) k) := by
  unfold fin
  refine (shapeCast_ab_1ab_apply _ shapeCasts_S1x4_S1x1x4 (0 : Fin 1) (0 : Fin 1) k).trans ?_
  show shapeCast S1x4 old shapeCasts_S1x1x4_S1x4 (ix2 (0 : Fin 1) k) + t _ = _
  rw [shapeCast_1ab_ab_apply old shapeCasts_S1x1x4_S1x4 (0 : Fin 1) k]

/-- The stored row at lane `k`: the loaded row's entry plus the number of set bits of the `k`-th mask. -/
theorem row_apply (m : Fin 4 → IVec S512x1024 1) (old : Vec Ideal S1x1x4 .f32) (k : Fin 4) :
    row (F := Ideal) (m 0) (m 1) (m 2) (m 3) old (ix3 (0 : Fin 1) (0 : Fin 1) k)
      = old (ix3 (0 : Fin 1) (0 : Fin 1) k) + natE (Finset.univ.filter fun i : S512x1024.Idx => m k i = 1#1).card := by
  unfold row
  rw [fin_apply, acc_apply, acc_apply, acc_apply, acc_apply, zero4_apply, cntv_apply, cntv_apply, cntv_apply, cntv_apply,
    oh_apply, oh_apply, oh_apply, oh_apply]
  fin_cases k <;> simp [natE]

/-! ## The masks, and the counts as counts of tile pixels -/

/-- The set bits of a [512, 1024] mask are as many as the tile pixels with the property the bit decides. -/
theorem card_tile (b : IVec S512x1024 1) (P : Cert.CountSpec.STile.Idx → Prop)
    (hb : ∀ (p : Fin 512) (q : Fin 1024), b (ix2 p q) = 1#1 ↔ P (ix3 (0 : Fin 1) p q)) :
    (Finset.univ.filter fun i : S512x1024.Idx => b i = 1#1).card = Cert.CountSpec.tileCount P := by
  classical
  unfold Cert.CountSpec.tileCount
  refine Finset.card_bij'
    (fun i _ => (ix3 (0 : Fin 1) (⟨(i 0).val, (i 0).isLt⟩ : Fin 512) (⟨(i 1).val, (i 1).isLt⟩ : Fin 1024) : Cert.CountSpec.STile.Idx))
    (fun y _ => (ix2 (⟨(y 1).val, (y 1).isLt⟩ : Fin 512) (⟨(y 2).val, (y 2).isLt⟩ : Fin 1024) : S512x1024.Idx)) ?_ ?_ ?_ ?_
  · intro i hi
    have hbit := (Finset.mem_filter.1 hi).2
    refine Finset.mem_filter.2 ⟨Finset.mem_univ _, ?_⟩
    refine (hb _ _).1 ?_
    have e : (ix2 (⟨(i 0).val, (i 0).isLt⟩ : Fin 512) (⟨(i 1).val, (i 1).isLt⟩ : Fin 1024) : S512x1024.Idx) = i := by
      funext a
      match a with
      | ⟨0, _⟩ => rfl
      | ⟨1, _⟩ => rfl
    rw [e]
    exact hbit
  · intro y hy
    have hP := (Finset.mem_filter.1 hy).2
    refine Finset.mem_filter.2 ⟨Finset.mem_univ _, ?_⟩
    refine (hb _ _).2 ?_
    have e : (ix3 (0 : Fin 1) (⟨(y 1).val, (y 1).isLt⟩ : Fin 512) (⟨(y 2).val, (y 2).isLt⟩ : Fin 1024) : Cert.CountSpec.STile.Idx) = y := by
      funext a
      match a with
      | ⟨0, _⟩ => exact Fin.ext (by have h : (y 0).val < 1 := (y 0).isLt; show (0 : ℕ) = (y 0).val; omega)
      | ⟨1, _⟩ => rfl
      | ⟨2, _⟩ => rfl
    rw [e]
    exact hP
  · intro i _
    funext a
    match a with
    | ⟨0, _⟩ => rfl
    | ⟨1, _⟩ => rfl
  · intro y _
    funext a
    match a with
    | ⟨0, _⟩ => exact Fin.ext (by have h : (y 0).val < 1 := (y 0).isLt; show (0 : ℕ) = (y 0).val; omega)
    | ⟨1, _⟩ => rfl
    | ⟨2, _⟩ => rfl

/-- The prediction mask of class `k` at a pixel: the truncated prediction is `k`. -/
theorem maskTrunc_iff (X0 : Vec Ideal S1x512x1024 .f32) (k : Fin 4) (p : Fin 512) (q : Fin 1024) :
    maskEq (k0_pay4 (F := Ideal) X0) (BitVec.ofNat 32 k.val) (ix2 p q) = 1#1
      ↔ Cert.CountSpec.truncIs (X0 (ix3 (0 : Fin 1) p q)) k := by
  have e : k0_pay4 (F := Ideal) X0 (ix2 p q) = Ideal.fptosi 32 (X0 (ix3 (0 : Fin 1) p q)) := by
    show FloatOps.fptosi (F := Ideal) 32 (shapeCast S512x1024 X0 shapeCasts_S1x512x1024_S512x1024 (ix2 p q)) = _
    rw [shapeCast_1ab_ab_apply X0 shapeCasts_S1x512x1024_S512x1024 p q]
    rfl
  show IntOp.cmpi .eq (k0_pay4 (F := Ideal) X0 (ix2 p q)) (BitVec.ofNat 32 k.val) = 1#1 ↔ _
  rw [cmpi_eq_one_iff, e]
  rfl

/-- The label mask of class `k` at a pixel: the label is `k`. -/
theorem maskLabel_iff (X1 : Vec Ideal S1x512x1024 .i32) (k : Fin 4) (p : Fin 512) (q : Fin 1024) :
    maskEq (k0_pay3 (F := Ideal) X1) (BitVec.ofNat 32 k.val) (ix2 p q) = 1#1
      ↔ Cert.CountSpec.labelIs (X1 (ix3 (0 : Fin 1) p q)) k := by
  have e : k0_pay3 (F := Ideal) X1 (ix2 p q) = X1 (ix3 (0 : Fin 1) p q) := by
    show shapeCast S512x1024 X1 shapeCasts_S1x512x1024_S512x1024 (ix2 p q) = _
    rw [shapeCast_1ab_ab_apply X1 shapeCasts_S1x512x1024_S512x1024 p q]
  show IntOp.cmpi .eq (k0_pay3 (F := Ideal) X1 (ix2 p q)) (BitVec.ofNat 32 k.val) = 1#1 ↔ _
  rw [cmpi_eq_one_iff, e]
  rfl

/-- A conjunction of two bits is set exactly when both are. -/
theorem andi_one_iff (x y : BitVec 1) : IntOp.andi x y = 1#1 ↔ x = 1#1 ∧ y = 1#1 := by
  rcases bit01 x with hx | hx <;> rcases bit01 y with hy | hy <;> subst hx <;> subst hy <;> decide

/-! ## The three stored rows -/

theorem rowPay0_apply (X0 : Vec Ideal S1x512x1024 .f32) (old : Vec Ideal S1x1x4 .f32) (k : Fin 4) :
    rowPay0 (F := Ideal) X0 old (ix3 (0 : Fin 1) (0 : Fin 1) k)
      = old (ix3 (0 : Fin 1) (0 : Fin 1) k)
        + (((Cert.CountSpec.tileCount fun y => Cert.CountSpec.truncIs (X0 y) k : ℕ) : ℝ) : EReal) := by
  rw [rowPay0_eq]
  refine (row_apply (fun k' => maskEq (k0_pay4 (F := Ideal) X0) (BitVec.ofNat 32 k'.val)) old k).trans ?_
  rw [card_tile _ (fun y => Cert.CountSpec.truncIs (X0 y) k) (fun p q => maskTrunc_iff X0 k p q)]

theorem rowPay1_apply (X1 : Vec Ideal S1x512x1024 .i32) (old : Vec Ideal S1x1x4 .f32) (k : Fin 4) :
    rowPay1 (F := Ideal) X1 old (ix3 (0 : Fin 1) (0 : Fin 1) k)
      = old (ix3 (0 : Fin 1) (0 : Fin 1) k)
        + (((Cert.CountSpec.tileCount fun y => Cert.CountSpec.labelIs (X1 y) k : ℕ) : ℝ) : EReal) := by
  rw [rowPay1_eq]
  refine (row_apply (fun k' => maskEq (k0_pay3 (F := Ideal) X1) (BitVec.ofNat 32 k'.val)) old k).trans ?_
  rw [card_tile _ (fun y => Cert.CountSpec.labelIs (X1 y) k) (fun p q => maskLabel_iff X1 k p q)]

theorem rowPay2_apply (X0 : Vec Ideal S1x512x1024 .f32) (X1 : Vec Ideal S1x512x1024 .i32) (old : Vec Ideal S1x1x4 .f32) (k : Fin 4) :
    rowPay2 (F := Ideal) X0 X1 old (ix3 (0 : Fin 1) (0 : Fin 1) k)
      = old (ix3 (0 : Fin 1) (0 : Fin 1) k)
        + (((Cert.CountSpec.tileCount fun y => Cert.CountSpec.truncIs (X0 y) k ∧ Cert.CountSpec.labelIs (X1 y) k : ℕ) : ℝ) : EReal) := by
  rw [rowPay2_eq]
  refine (row_apply (fun k' => andi (maskEq (k0_pay4 (F := Ideal) X0) (BitVec.ofNat 32 k'.val))
    (maskEq (k0_pay3 (F := Ideal) X1) (BitVec.ofNat 32 k'.val))) old k).trans ?_
  rw [card_tile _ (fun y => Cert.CountSpec.truncIs (X0 y) k ∧ Cert.CountSpec.labelIs (X1 y) k) (fun p q => by
    show IntOp.andi _ _ = 1#1 ↔ _
    rw [andi_one_iff, maskTrunc_iff, maskLabel_iff])]

end Cert.KernelIdeal.Pieces

end
-- ==== Proof.KernelAcc.lean ====
/-
  The accumulation over the grid points. The 32 points come in two groups of sixteen; a group's first point zeroes
  the output block and then adds its tile's counts, every later point of the group adds its tile's counts to what
  the point before left. So after the j-th point of a group, entry (0, r, k) of the block — r = 0, 1, 2 the row of
  prediction, label and joint counts, k the class — holds the sum of the group's first j + 1 tiles' counts.
-/
import proofs.«145284_j10900626997841_2_alg».proof.Proof.KernelBlock
import proofs.«145284_j10900626997841_2_alg».proof.Proof.RowValue
import proofs.«145284_j10900626997841_2_alg».proof.Proof.CountSpec
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.Pieces Cert.CountSpec

variable (m : (ℓ : Loc nD τ sig) → Buf (Elt Ideal) ℓ)

/-- Which count row r of the block accumulates, for class k, of a tile (predictions X0, labels X1). -/
def rowCount (r : Fin 3) (k : Fin 4) (X0 : Vec Ideal S1x512x1024 .f32) (X1 : Vec Ideal S1x512x1024 .i32) : ℕ :=
  match r with
  | 0 => tileCount fun y => truncIs (X0 y) k
  | 1 => tileCount fun y => labelIs (X1 y) k
  | 2 => tileCount fun y => truncIs (X0 y) k ∧ labelIs (X1 y) k

/-- Point n's count (0 past the grid). -/
def pointCount (c : Dev nD) (r : Fin 3) (k : Fin 4) (n : ℕ) : ℕ :=
  if h : n < cfg0.N then rowCount r k (iblk m c 0 ⟨n, h⟩) (iblk m c 1 ⟨n, h⟩) else 0

/-- The float zero is the number zero. -/
theorem scalar_zero : (Scalar.ofBits (F := Ideal) .f32 0x00000000#32 : EReal) = 0 := Ideal.ofBits_zero_f32

section point
variable (c : Dev nD) (i : grid0.Coords) (arg3 : Memref sig .tc .vmem S1x512x1024 .f32) (harg3 : arg3.IsWhole)
  (arg4 : Memref sig .tc .vmem S1x512x1024 .i32) (harg4 : arg4.IsWhole) (arg5 : Memref sig .tc .vmem S1x8x128 .f32) (harg5 : arg5.IsWhole)
  (x0 : Vec Ideal S1x512x1024 .f32) (x1 : Vec Ideal S1x512x1024 .i32)

/-- An ordinary point adds its tile's count to the entry as it stood. -/
theorem outB_entry (hc0 : ¬cond0_0 i) (xo2 : Vec Ideal S1x8x128 .f32) (r : Fin 3) (k : Fin 4) :
    out0_B_2 (F := Ideal) c i arg3 harg3 arg4 harg4 arg5 harg5 hc0 x0 x1 xo2 (ent (⟨r.val, by omega⟩ : Fin 8) k)
      = xo2 (ent (⟨r.val, by omega⟩ : Fin 8) k) + natE (rowCount r k x0 x1) := by
  match r with
  | ⟨0, _⟩ =>
    refine (outB_row0 c i arg3 harg3 arg4 harg4 arg5 harg5 hc0 x0 x1 xo2 k).trans ?_
    refine (rowPay0_apply x0 (View.ld xo2 R0) k).trans ?_
    rw [ld_row0 xo2 k]
    rfl
  | ⟨1, _⟩ =>
    refine (outB_row1 c i arg3 harg3 arg4 harg4 arg5 harg5 hc0 x0 x1 xo2 k).trans ?_
    refine (rowPay1_apply x1 (View.ld xo2 R1) k).trans ?_
    rw [ld_row1 xo2 k]
    rfl
  | ⟨2, _⟩ =>
    refine (outB_row2 c i arg3 harg3 arg4 harg4 arg5 harg5 hc0 x0 x1 xo2 k).trans ?_
    refine (rowPay2_apply x0 x1 (View.ld xo2 R2) k).trans ?_
    rw [ld_row2 xo2 k]
    rfl

/-- A group's first point leaves its tile's count. -/
theorem outA_entry (hc0 : cond0_0 i) (r : Fin 3) (k : Fin 4) :
    out0_A_2 (F := Ideal) c i arg3 harg3 arg4 harg4 arg5 harg5 hc0 x0 x1 (ent (⟨r.val, by omega⟩ : Fin 8) k)
      = natE (rowCount r k x0 x1) := by
  match r with
  | ⟨0, _⟩ =>
    refine (outA_row0 c i arg3 harg3 arg4 harg4 arg5 harg5 hc0 x0 x1 k).trans ?_
    refine (rowPay0_apply x0 _ k).trans ?_
    rw [oldA0 arg5.view k, scalar_zero, zero_add]
    rfl
  | ⟨1, _⟩ =>
    refine (outA_row1 c i arg3 harg3 arg4 harg4 arg5 harg5 hc0 x0 x1 k).trans ?_
    refine (rowPay1_apply x1 _ k).trans ?_
    rw [oldA1 arg5.view x0 k, scalar_zero, zero_add]
    rfl
  | ⟨2, _⟩ =>
    refine (outA_row2 c i arg3 harg3 arg4 harg4 arg5 harg5 hc0 x0 x1 k).trans ?_
    refine (rowPay2_apply x0 x1 _ k).trans ?_
    rw [oldA2 arg5.view x0 x1 k, scalar_zero, zero_add]
    rfl

end point

/-- After the j-th point of group q the block's entry (0, r, k) holds the group's counts so far, added up. -/
theorem outsAt_entry (c : Dev nD) (r : Fin 3) (k : Fin 4) (q : ℕ) : ∀ (j : ℕ), j < 16 → ∀ (h : 16 * q + j < cfg0.N),
    outsAt0 m c (16 * q + j) h (ent (⟨r.val, by omega⟩ : Fin 8) k)
      = (((∑ s ∈ Finset.range (j + 1), pointCount m c r k (16 * q + s) : ℕ) : ℝ) : EReal)
  | 0, _, h => by
    have hA : (⟨16 * q + 0, h⟩ : Fin cfg0.N).val % 16 = 0 := by
      show (16 * q + 0) % 16 = 0
      omega
    rw [outsAt0_A m c ⟨16 * q + 0, h⟩ hA, outA_entry, Finset.sum_range_one]
    unfold pointCount
    rw [dif_pos h]
  | j + 1, hj, h => by
    have hB : ¬(⟨16 * q + (j + 1), h⟩ : Fin cfg0.N).val % 16 = 0 := by
      show ¬(16 * q + (j + 1)) % 16 = 0
      omega
    rw [outsAt0_B m c ⟨16 * q + (j + 1), h⟩ hB, outB_entry]
    show outsAt0 m c (16 * q + j) _ (ent (⟨r.val, by omega⟩ : Fin 8) k) + _ = _
    rw [outsAt_entry c r k q j (by omega) _, Finset.sum_range_succ _ (j + 1), Nat.cast_add, EReal.coe_add]
    congr 1
    unfold pointCount
    rw [dif_pos h]

end Cert.KernelIdeal.Acc

end
-- ==== Proof.KernelTail.lean ====
/-
  The kernel program's host operations after the region, read as a value.

  After the region the program adds the two groups' [8, 128] blocks of the output array (a sum over axis 0),
  takes columns 0..3 of rows 0, 1 and 2 of the result (the per-class counts: predictions, labels, both), forms
  union = (row 0 + row 1) − row 2 and inter = row 2, and ends in the arithmetic tail of the specification.
-/
import proofs.«145284_j10900626997841_2_alg».proof.Proof.Gen.KernelIdeal.Frame
import proofs.«145284_j10900626997841_2_alg».proof.Proof.CountSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.TailValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-- Row r of the two groups' blocks added up, columns 0..3. -/
def rowSum (O : FVec Ideal S2x8x128 .f32) (r : Fin 8) : FVec Ideal S4 .f32 :=
  fun j => ∑ g : Fin 2, O (ix3 g r (⟨(j 0).val, by have := (j 0).isLt; (have h4 : (j 0).val < 4 := this); omega⟩ : Fin 128))

/-- The buffer of the last operation's result is not one of the arrays the region reads or writes. -/
theorem v20_rest : main_v20 ∈ Pipeline.restRefs sig (cfgs 0).spec := by decide

/-- Summing over the groups' axis: the shape fact that names the inserted coordinate. -/
theorem reduces0 : S2x8x128.Reduces [0] S8x128 := by decide

/-- The sum of the two groups' blocks, read at (r, col): the zero it starts from adds nothing. -/
theorem combined_apply (O : FVec Ideal S2x8x128 .f32) (r : Fin 8) (col : Fin 128) :
    Host.reduceAdd (F := Ideal) O (constant (F := Ideal) S_ .f32 0x00000000#32) Gen.reducesTo_S2x8x128_S8x128_d0 Gen.h_S_ (ix2 r col)
      = ∑ g : Fin 2, O (ix3 g r col) := by
  rw [hostReduceAdd_apply, Ideal.hostReduceAdd_single _ reduces0]
  rw [show (constant (F := Ideal) S_ .f32 0x00000000#32) (Shape.Idx.first Gen.h_S_) = (0 : EReal) from Ideal.ofBits_zero_f32, zero_add]
  refine Finset.sum_congr rfl fun g _ => congrArg O ?_
  funext a
  match a with
  | ⟨0, _⟩ => rfl
  | ⟨1, _⟩ => rfl
  | ⟨2, _⟩ => rfl

/-- Columns 0..3 of row n of the sum, as a vector of 4: the slice [n : n+1, 0 : 4] with its unit axis dropped. -/
def rowOf (X : FVec Ideal S2x8x128 .f32) (n : Nat) (hs : S8x128.Slices ![n, 0] S1x4) : FVec Ideal S4 .f32 :=
  fun i => shapeCast S4 (extractStridedSlice S1x4 ![n, 0]
    (Host.reduceAdd (F := Ideal) X (constant (F := Ideal) S_ .f32 0x00000000#32) Gen.reducesTo_S2x8x128_S8x128_d0 Gen.h_S_) hs)
    Gen.shapeCasts_S1x4_S4 i

/-- Read at a class j it is the two groups' entries at (row, j) added up. -/
theorem rowOf_eq (O : FVec Ideal S2x8x128 .f32) (r : Fin 8) (n : Nat) (hn : r.val = n) (hs : S8x128.Slices ![n, 0] S1x4) :
    rowOf O n hs = rowSum O r := by
  subst hn
  funext j
  obtain ⟨a, rfl⟩ : ∃ a : Fin 4, j = ix1 a := ⟨j 0, eq_ix1 j⟩
  unfold rowOf rowSum
  have ha : a.val < 128 := by have := a.isLt; omega
  refine (shapeCast_1a_a_apply _ Gen.shapeCasts_S1x4_S4 a).trans ?_
  refine (extractStridedSlice_apply _ _ hs (ix2 (0 : Fin 1) a) (ix2 r (⟨a.val, ha⟩ : Fin 128)) (fun ax => ?_)).trans ?_
  · match ax with
    | ⟨0, _⟩ => exact (Nat.add_zero _).symm
    | ⟨1, _⟩ => exact (Nat.zero_add _).symm
  · exact combined_apply O r _

set_option maxHeartbeats 1000000 in
/-- What the program returns, from the output array O the region leaves: the specification's tail of row 2 (the
    intersection counts) and of (row 0 + row 1) − row 2 (the union counts). -/
theorem tail_value (m : (ℓ : Loc nD τ sig) → Buf (Elt Ideal) ℓ) (c : Dev nD) (O : FVec Ideal S2x8x128 .f32)
    (hO : (Gen.dats m 0 c).arrAt 2 cfg0.N = O) :
    Pipeline.afterTail₀ cfgs (Gen.dats m) 0 (Gen.V0 m) [hostOps1, hostOps1_1, hostOps1_2, hostOps1_3, hostOps1_4] c main_v20
      = Cert.CountSpec.tail Gen.bcast_S_S4 (rowSum O 2) (subf (addf (rowSum O 0) (rowSum O 1)) (rowSum O 2)) := by
  have hW : Pipeline.withArrays (cfgs 0).spec c (V0 m c) (fun w => (dats m 0 c).arrAt w (cfgs 0).N) (Proc.tc.devRef main_v0) = O :=
    (Pipeline.withArrays_arr spec0 launch0.win.arr_inj c _ _ 2).trans hO
  unfold Pipeline.afterTail₀
  simp only [hostOps1, hostOps1_1, hostOps1_2, hostOps1_3, hostOps1_4, List.flatten_cons, List.flatten_nil, List.append_nil,
    List.cons_append, List.nil_append]
  after_results_simp
  rw [hW]
  show Cert.CountSpec.tail Gen.bcast_S_S4 (rowOf O 2 Gen.slices_S8x128_S1x4_2_0)
    (subf (addf (rowOf O 0 Gen.slices_S8x128_S1x4_0_0) (rowOf O 1 Gen.slices_S8x128_S1x4_1_0)) (rowOf O 2 Gen.slices_S8x128_S1x4_2_0)) = _
  rw [rowOf_eq O 0 0 rfl, rowOf_eq O 1 1 rfl, rowOf_eq O 2 2 rfl]

end Cert.KernelIdeal.TailValue

end
-- ==== Proof.KernelValue.lean ====
/-
  The kernel program's value, assembled.

  The result array's entry (g, r, k) is what group g's sixteen grid points accumulated: the sum of their tiles'
  counts for row r (0 predictions, 1 labels, 2 both) and class k. Adding the two groups gives the sum over all 32
  tiles, and the tiles partition the array, so the sum is the count over the whole array. The host operations
  after the region turn these three count vectors into the specification's kernel side.
-/
import proofs.«145284_j10900626997841_2_alg».proof.Proof.KernelBlocks
import proofs.«145284_j10900626997841_2_alg».proof.Proof.KernelAcc
import proofs.«145284_j10900626997841_2_alg».proof.Proof.KernelTail
import proofs.«145284_j10900626997841_2_alg».proof.Proof.CountBridge

set_option maxRecDepth 16384

noncomputable section

namespace Cert.KernelIdeal.Value

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CountSpec
open scoped BigOperators

variable (m : (ℓ : Loc nD τ sig) → Buf (Elt Ideal) ℓ) (c : Dev nD)

/-- The whole-array condition whose pixels row r counts, for class k. -/
def rowPred (x : FVec Ideal SArr .f32) (l : IVec SArr 32) (r : Fin 3) (k : Fin 4) : SArr.Idx → Prop :=
  match r with
  | 0 => fun i => truncIs (x i) k
  | 1 => fun i => labelIs (l i) k
  | 2 => fun i => truncIs (x i) k ∧ labelIs (l i) k

/-- A grid point's count is the count, over its tile, of the whole-array condition at the tile's pixels. -/
theorem pointCount_eq (r : Fin 3) (k : Fin 4) (t : Fin 32) :
    Acc.pointCount m c r k t.val
      = tileCount (fun y => rowPred (m ((c : Thread nD τ).loc main_arg0)) (m ((c : Thread nD τ).loc main_arg1)) r k (tileIdx t y)) := by
  have h : t.val < cfg0.N := lt_of_lt_of_eq t.isLt (show cfg0.N = 32 from N_0).symm
  have ht : Blocks.tile (⟨t.val, h⟩ : Fin cfg0.N) = t := Fin.ext rfl
  unfold Acc.pointCount
  rw [dif_pos h]
  match r with
  | ⟨0, _⟩ =>
    refine congrArg tileCount (funext fun y => ?_)
    rw [Blocks.iblk0_apply, ht]
    rfl
  | ⟨1, _⟩ =>
    refine congrArg tileCount (funext fun y => ?_)
    rw [Blocks.iblk1_apply, ht]
    rfl
  | ⟨2, _⟩ =>
    refine congrArg tileCount (funext fun y => ?_)
    rw [Blocks.iblk0_apply, Blocks.iblk1_apply, ht]
    rfl

/-- The two groups' sums of sixteen points are the sum over the 32 tiles: the count over the whole array. -/
theorem groups_total (r : Fin 3) (k : Fin 4) :
    (∑ s ∈ Finset.range 16, Acc.pointCount m c r k (16 * 0 + s)) + (∑ s ∈ Finset.range 16, Acc.pointCount m c r k (16 * 1 + s))
      = count (rowPred (m ((c : Thread nD τ).loc main_arg0)) (m ((c : Thread nD τ).loc main_arg1)) r k) := by
  rw [← count_tiles]
  rw [← Finset.sum_congr rfl (fun t _ => pointCount_eq m c r k t)]
  rw [← Finset.sum_range (fun t => Acc.pointCount m c r k t), show (32 : ℕ) = 16 + 16 from rfl, Finset.sum_range_add]
  simp only [Nat.mul_zero, Nat.zero_add, Nat.mul_one]

/-- Entry (·, r, k) of the result array, the two groups added: the count over the whole array, as a real number. -/
theorem entry_total (O : FVec Ideal S2x8x128 .f32) (hO : (Gen.dats m 0 c).arrAt 2 cfg0.N = O) (r : Fin 3) (k : Fin 4) (r8 : Fin 8) (hr : r8 = ⟨r.val, by omega⟩) (kk : Fin 128) (hk : kk = ⟨k.val, by omega⟩) :
    (∑ g : Fin 2, O (ix3 g r8 kk))
      = (((count (rowPred (m ((c : Thread nD τ).loc main_arg0)) (m ((c : Thread nD τ).loc main_arg1)) r k) : ℕ) : ℝ) : EReal) := by
  subst hr hk
  have hN : cfg0.N = 32 := N_0
  have hg : ∀ g : Fin 2, O (ix3 g (⟨r.val, by omega⟩ : Fin 8) (⟨k.val, by omega⟩ : Fin 128))
      = (((∑ s ∈ Finset.range 16, Acc.pointCount m c r k (16 * g.val + s) : ℕ) : ℝ) : EReal) := by
    intro g
    have hlt : 16 * g.val + 15 < cfg0.N := by rw [hN]; have := g.isLt; omega
    rw [← hO, Blocks.final_entry]
    unfold Blocks.lastOf
    rw [dif_pos hlt]
    exact Acc.outsAt_entry m c r k g.val 15 (by omega) hlt
  rw [Fin.sum_univ_two, hg 0, hg 1, ← EReal.coe_add, ← Nat.cast_add]
  exact congrArg (fun n : ℕ => ((n : ℝ) : EReal)) (groups_total m c r k)

theorem rowSum_pred : TailValue.rowSum ((Gen.dats m 0 c).arrAt 2 cfg0.N) 0 = predK (m ((c : Thread nD τ).loc main_arg0)) := by
  funext j
  exact entry_total m c _ rfl 0 ⟨(j 0).val, (j 0).isLt⟩ 0 rfl _ rfl

theorem rowSum_label : TailValue.rowSum ((Gen.dats m 0 c).arrAt 2 cfg0.N) 1 = labelK (m ((c : Thread nD τ).loc main_arg1)) := by
  funext j
  exact entry_total m c _ rfl 1 ⟨(j 0).val, (j 0).isLt⟩ 1 rfl _ rfl

theorem rowSum_inter : TailValue.rowSum ((Gen.dats m 0 c).arrAt 2 cfg0.N) 2
    = interK (m ((c : Thread nD τ).loc main_arg0)) (m ((c : Thread nD τ).loc main_arg1)) := by
  funext j
  exact entry_total m c _ rfl 2 ⟨(j 0).val, (j 0).isLt⟩ 2 rfl _ rfl

/-- What the host operations after the region leave in the result buffer: the specification's kernel side. -/
theorem result_eq :
    Pipeline.afterTail₀ cfgs (Gen.dats m) 0 (Gen.V0 m) [hostOps1, hostOps1_1, hostOps1_2, hostOps1_3, hostOps1_4] c main_v20
      = kernelSpec Gen.bcast_S_S4 (m ((c : Thread nD τ).loc main_arg0)) (m ((c : Thread nD τ).loc main_arg1)) := by
  rw [TailValue.tail_value m c _ rfl, rowSum_pred, rowSum_label, rowSum_inter]
  rfl

/-- The kernel program's run, read: the result is the specification's kernel side, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = kernelSpec Gen.bcast_S_S4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 TailValue.v20_rest).trans (result_eq m c),
      ((h c).1 0).trans (((Gen.dats m 0 c).arrAt_in 0 rfl _).trans ((Gen.A_eq m c 0).trans (V_main_arg0 m c))),
      ((h c).1 1).trans (((Gen.dats m 0 c).arrAt_in 1 rfl _).trans ((Gen.A_eq m c 1).trans (V_main_arg1 m c)))⟩)
    (Gen.run_main m ρ)

end Cert.KernelIdeal.Value

end
-- ==== Proof.lean ====
/-
  The kernel and its reference compute the same four numbers, `1 − 100 · iou_k` for the classes k = 0..3 of a
  16 × 1024 × 1024 segmentation (predictions as floats, labels as integers), where `iou_k` is the quotient of the
  number of pixels whose prediction AND label are class k by the number whose prediction OR label is, and 1 where
  no pixel is either.

  The reference counts both sets over the whole array. The kernel counts, tile by tile (32 tiles of 512 rows of one
  image, sixteen consecutive tiles accumulated into one output block per group, the two groups' blocks added on
  the host), the pixels predicted k, the pixels labelled k and the pixels both, and forms the union count as
  `pred + label − inter`: inclusion–exclusion, exact over the extended reals because every count is a real number.
  The kernel reads a prediction as a class by truncating the float toward zero, the reference by comparing the
  float with the class: the two agree on integer-valued predictions, which the precondition states (every
  prediction finite and equal to its floor). The arithmetic after the counts is one and the same function of the
  intersection and union counts in both programs, and is never opened.

  The modules: CountSpec (the counts and the shared tail), CountBridge (the tiles partition the array; truncation
  on integers; inclusion–exclusion), PreOpen (the precondition makes every prediction an integer), RefCount (the
  reference's integer reductions are the counts), KernelPieces / KernelBlock / RowValue / KernelAcc (one grid point's
  stores, and the running sums they build), KernelBlocks (which tile a point stages, and where its block is written
  back), KernelTail (the host operations after the region), KernelValue (the kernel program's run, read).
-/
import proofs.«145284_j10900626997841_2_alg».proof.Defs
import proofs.«145284_j10900626997841_2_alg».proof.Proof.Gen.Kernel
import proofs.«145284_j10900626997841_2_alg».proof.Proof.Gen.Kernel.Skeleton
import proofs.«145284_j10900626997841_2_alg».proof.Proof.Gen.Kernel.Launch
import proofs.«145284_j10900626997841_2_alg».proof.Proof.Gen.Kernel.Points
import proofs.«145284_j10900626997841_2_alg».proof.Proof.Gen.Kernel.Frame
import proofs.«145284_j10900626997841_2_alg».proof.Proof.Gen.KernelIdeal
import proofs.«145284_j10900626997841_2_alg».proof.Proof.Gen.KernelIdeal.Skeleton
import proofs.«145284_j10900626997841_2_alg».proof.Proof.Gen.KernelIdeal.Launch
import proofs.«145284_j10900626997841_2_alg».proof.Proof.Gen.KernelIdeal.Points
import proofs.«145284_j10900626997841_2_alg».proof.Proof.Gen.KernelIdeal.Frame
import proofs.«145284_j10900626997841_2_alg».proof.Proof.Gen.ReferenceIdeal
import proofs.«145284_j10900626997841_2_alg».proof.Proof.Gen.Pre_finite_inputs
import proofs.«145284_j10900626997841_2_alg».proof.Proof.RefRunP
import proofs.«145284_j10900626997841_2_alg».proof.Proof.RefReadP
import proofs.«145284_j10900626997841_2_alg».proof.Proof.RefCount
import proofs.«145284_j10900626997841_2_alg».proof.Proof.CountSpec
import proofs.«145284_j10900626997841_2_alg».proof.Proof.CountBridge
import proofs.«145284_j10900626997841_2_alg».proof.Proof.PreOpen
import proofs.«145284_j10900626997841_2_alg».proof.Proof.KernelValue
import Idealize.ShloMosaic.Adequacy
import Idealize.ShloMosaic.Init

noncomputable section

namespace Cert.Proof

open Idealize.ShloMosaic Idealize.SL.Sem

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end at the tail of their counts; under the precondition every prediction is an integer, on which the
    kernel's counts (by truncation, with the union by inclusion–exclusion) are the reference's. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq, Cert.ReferenceIdeal.RefValue.result_eq, (hagree c).1, (hagree c).2]
  exact (Cert.CountSpec.spec_eq _ _ _ (Cert.PreOpen.integral_of_pre _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
